-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x128 .f32) (main_arg9 : FVec F S1 .f32) (main_v33 : IVec S_ 1) : IVec S_ 1 :=
  let main_v34 : FVec F S1x128 .f32 := Host.absf main_arg8
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S1x128 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S1x128 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S128x1 : Shape := ⟨2, ![128, 1]⟩
abbrev S1x1 : Shape := ⟨2, ![1, 1]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S5000x128 : Shape := ⟨2, ![5000, 128]⟩
abbrev S5000x1 : Shape := ⟨2, ![5000, 1]⟩

abbrev nBuf : Space → Nat
  | .hbm => 75
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x128, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S128x1, .f32⟩
  | .hbm, ⟨19, _⟩ => ⟨S1x128, .f32⟩
  | .hbm, ⟨20, _⟩ => ⟨S1x128, .f32⟩
  | .hbm, ⟨21, _⟩ => ⟨S1x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S_, .f32⟩
  | .hbm, ⟨36, _⟩ => ⟨S1600000, .f32⟩
  | .hbm, ⟨37, _⟩ => ⟨S_, .f32⟩
  | .hbm, ⟨38, _⟩ => ⟨S100000, .f32⟩
  | .hbm, ⟨39, _⟩ => ⟨S1600000x1, .i32⟩
  | .hbm, ⟨40, _⟩ => ⟨S100000, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S100000x1, .f32⟩
  | .hbm, ⟨74, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S128x1, .f32⟩
  | .local _ .vmem, ⟨17, _⟩ => ⟨S1x1, .f32⟩
  | .local _ .vmem, ⟨18, _⟩ => ⟨S5000x1, .f32⟩
  | .local _ .vmem, ⟨19, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  transposes_S1x128_S128x1_1_0 : S1x128.Transposes [1, 0] S128x1
  shapeCasts_S128_S1x128 : S128.ShapeCasts S1x128
  shapeCasts_S1_S1x1 : S1.ShapeCasts S1x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x1.size a ≤ S128x1.size a
  hwx1_5 : ∀ i : grid1.Coords, EltTy.bits .f32 = 32 ∨ (Rect.block (s := S128x1) S128x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x1.size a ≤ S100000x1.size a
  hwx1_7 : ∀ i : grid1.Coords, EltTy.bits .f32 = 32 ∨ (Rect.block (s := S100000x1) S5000x1.size (cc1_transform_7 i) (hinb1_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S128x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v51) S5000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S128x1 : Shape := ⟨2, ![128, 1]⟩
abbrev S1x1 : Shape := ⟨2, ![1, 1]⟩
abbrev S100000 : Shape := ⟨1, ![100000]⟩

abbrev nBuf : Space → Nat
  | .hbm => 90
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x128, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000x1, .f32⟩
  | .hbm, ⟨29, _⟩ => ⟨S_, .f32⟩
  | .hbm, ⟨30, _⟩ => ⟨S100000x1, .f32⟩
  | .hbm, ⟨31, _⟩ => ⟨S1600000x1, .i32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S128x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S_, .f32⟩
  | .hbm, ⟨63, _⟩ => ⟨S1600000x1, .f32⟩
  | .hbm, ⟨64, _⟩ => ⟨S_, .f32⟩
  | .hbm, ⟨65, _⟩ => ⟨S100000x1, .f32⟩
  | .hbm, ⟨66, _⟩ => ⟨S1600000x1, .i32⟩
  | .hbm, ⟨67, _⟩ => ⟨S100000x1, .f32⟩
  | .hbm, ⟨68, _⟩ => ⟨S_, .f32⟩
  | .hbm, ⟨69, _⟩ => ⟨S100000x1, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S128x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | .hbm, ⟨84, _⟩ => ⟨S128x1, .f32⟩
  | .hbm, ⟨85, _⟩ => ⟨S100000x1, .f32⟩
  | .hbm, ⟨86, _⟩ => ⟨S1x1, .f32⟩
  | .hbm, ⟨87, _⟩ => ⟨S100000x1, .f32⟩
  | .hbm, ⟨88, _⟩ => ⟨S100000x1, .f32⟩
  | .hbm, ⟨89, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call1_cst : Ref sig .tc := ⟨.hbm, 81, rfl⟩
abbrev main_call1_v0 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The kernel program's run, with its result named.

  @main is five segments: host operations, the first pallas_call, host operations, the second pallas_call, one last
  reshape.  Every weakly fair execution ends with each unscoped buffer at the contents the segments leave, folded from
  the launch memory.  The frame keeps from that final state only that the arguments are unchanged; here the result
  buffer is read off the same state as well, at the fold's last contents.
-/
import proofs.«118519_j34136400069037_1_alg».proof.Proof.GenP.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the
    last segment's contents and the ten arguments as launched. -/
theorem run : θ_run defs (onTc (τ := τ) (main (F := F))) ⟨m, fun _ => 0, ρ⟩ (fun r => ∀ c : Dev nD,
      r.2.mem ((c.tc : Thread nD τ).loc main_v52) = W5 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v52 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.RunValue

end
-- ==== Proof.LibHostDot.lean ====
/-
  A plain matrix product on the host, read at an index.  `jnp`'s `A @ B` of an m×k by a k×n matrix lowers to a
  `dot_general` contracting the left operand's axis 1 with the right operand's axis 0; over the extended reals its entry
  (r, c) is the sum over the contracted coordinate i of `A (r, i) · B (i, c)`, whatever the precision and schedule.
  The extents are arbitrary naturals; nothing here depends on a program.  The second form takes the record by name
  together with the equation that spells its fields, for a record a program declares as a definition.
-/
import Idealize.ShloMosaic.Lib.Pipeline.Value
import Idealize.ShloMosaic.Lib.ValueIdx
import Idealize.ShloMosaic.PureOps.Ideal.Laws

noncomputable section

open scoped BigOperators

namespace Cert.LibHostDot

open Idealize.ShloMosaic Idealize.ShloMosaic.ValueIdx

/-- The host's product of an m×k by a k×n matrix, read at (r, c): the sum over the contracted coordinate. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    Host.dotGeneral (⟨[1], [0], [0], [1], [], [], w⟩ : DotDims _ _ _) prec A B (ix2 r c)
      = ∑ i : Fin k, A (ix2 r i) * B (ix2 i c) := by
  simp only [Host.dotGeneral]
  rw [Ideal.dotGeneral_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

/-- The same for a record given by name, with the equation that spells it. -/
theorem dotGeneral_plain_apply' {m k n : ℕ} {φ₁ φ₂ : FTy}
    (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hd : d = ⟨[1], [0], [0], [1], [], [], w⟩)
    (prec : Option ContractPrecision) (A : FVec Ideal ⟨2, ![m, k]⟩ φ₁) (B : FVec Ideal ⟨2, ![k, n]⟩ φ₂)
    (r : Fin m) (c : Fin n) :
    Host.dotGeneral d prec A B (ix2 r c) = ∑ i : Fin k, A (ix2 r i) * B (ix2 i c) := by
  subst hd
  exact dotGeneral_plain_apply w prec A B r c

end Cert.LibHostDot

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.LibHostRows.lean ====
import Idealize.ShloMosaic.Lib.Pipeline.Value
import Idealize.ShloMosaic.Lib.ValueIdx
import Idealize.ShloMosaic.Lib.IdealHost
import Idealize.ShloMosaic.PureOps.Ideal.Laws

/-!
# A vector broadcast down the rows, and a column sum, read at an index

`jnp` broadcasts a vector of `C` entries against an `R × C` matrix in two steps, `[C] → [1, C] → [R, C]`;
read at `(r, c)` the result is the vector's entry `c` (`rowBroadcast_apply`).  A host sum of an `R × C`
matrix over its rows, read at `c` over the extended reals, is the initial value plus the sum over `r` of
the entries `(r, c)` (`colSum_apply`).  The extents are arbitrary naturals.
-/

noncomputable section

open scoped BigOperators

namespace Cert.LibHostRows

open Idealize.ShloMosaic Idealize.ShloMosaic.ValueIdx

/-- A vector broadcast down the rows of a matrix, read at an index: the vector at the column. -/
theorem rowBroadcast_apply {α : Type} {R C : ℕ}
    (h1 : (⟨1, ![C]⟩ : Shape).BroadcastsInDim ⟨2, ![1, C]⟩ ![1])
    (h2 : (⟨2, ![1, C]⟩ : Shape).BroadcastsInDim ⟨2, ![R, C]⟩ ![0, 1])
    (y : (⟨1, ![C]⟩ : Shape).Idx → α) (i : (⟨2, ![R, C]⟩ : Shape).Idx) :
    broadcastInDim ⟨2, ![R, C]⟩ ![0, 1] h2 (broadcastInDim ⟨2, ![1, C]⟩ ![1] h1 y) i = y (ix1 (i 1)) := by
  have hc : (i 1).val < C := (i 1).isLt
  rw [broadcastInDim_apply _ h2 _ i (ix2 ⟨0, Nat.one_pos⟩ (i 1)) (fun a => match a with
      | ⟨0, _⟩ => by show (0 : ℕ) = if (1 : ℕ) = 1 then 0 else (i 0).val; rw [if_pos rfl]
      | ⟨1, _⟩ => by
        show (i 1).val = if C = 1 then 0 else (i 1).val
        split
        · omega
        · rfl),
    broadcastInDim_apply _ h1 y _ (ix1 (i 1)) (fun a => match a with
      | ⟨0, _⟩ => by
        show (i 1).val = if C = 1 then 0 else (i 1).val
        split
        · omega
        · rfl)]

/-- The host's sum of a matrix over its rows, read at a column over the extended reals. -/
theorem colSum_apply {R C : ℕ} {φ : FTy} {u : Shape}
    (hr : (⟨2, ![R, C]⟩ : Shape).ReducesTo [0] ⟨1, ![C]⟩) (hR : (⟨2, ![R, C]⟩ : Shape).Reduces [0] ⟨1, ![C]⟩)
    (hu : 0 < u.numel) (X : FVec Ideal ⟨2, ![R, C]⟩ φ) (c : u.Idx → Ideal φ) (j : (⟨1, ![C]⟩ : Shape).Idx) :
    Host.reduceAdd X c hr hu j = c (Shape.Idx.first hu) + ∑ r : Fin R, X (ix2 r (j 0)) := by
  rw [hostReduceAdd_apply, Ideal.hostReduceAdd_single hr hR]
  refine congrArg (_ + ·) (Finset.sum_congr rfl fun k _ => ?_)
  exact congrArg X (funext fun a => Fin.ext (by match a with | ⟨0, _⟩ => rfl | ⟨1, _⟩ => rfl))

end Cert.LibHostRows

end
-- ==== Proof.LibDenseLayers.lean ====
/-
  Dense layers over the extended reals, as functions of whole arrays, and the host operations that compute them.
  The extents n, k, c are arbitrary naturals; nothing here depends on a program.

  * `mm x w` is the matrix product: entry (r, q) is the sum over j of x (r, j) · w (j, q).
  * `addBias x b` adds the vector b to every row of x; `biasRelu x b` is its positive part, max (x + b) 0.
  * `addBiasRow`, `biasReluRow` take the bias as a 1 × c row; the row that is the reshape of a vector acts as the
    vector does (`addBiasRow_cast`, `biasReluRow_cast`).

  On the host a matrix product is a `dot_general` contracting axis 1 of the left operand with axis 0 of the right
  (`hostDot_eq_mm`), a bias is broadcast in two steps [c] → [1, c] → [n, c] and added (`hostAddBias_eq`), and the
  positive part is a maximum with the zero splat (`hostBiasRelu_eq`, `zeroSplat_apply`).  Each lemma reads one of
  these at an index and finds the layer function there.  No law of the extended reals beyond the meaning of the
  operations is used: the sums keep their order and nothing is distributed.
-/
import Idealize.ShloMosaic.Lib.Pipeline.Value
import Idealize.ShloMosaic.Lib.ValueIdx
import Idealize.ShloMosaic.PureOps.Ideal.Laws
import proofs.«118519_j34136400069037_1_alg».proof.Proof.LibHostDot
import proofs.«118519_j34136400069037_1_alg».proof.Proof.LibRowOps
import proofs.«118519_j34136400069037_1_alg».proof.Proof.LibHostRows

noncomputable section

open scoped BigOperators

namespace Cert.Layers

open Idealize.ShloMosaic Idealize.ShloMosaic.ValueIdx

variable {n k c : ℕ}

/-- The matrix product of an n×k by a k×c matrix. -/
def mm (x : FVec Ideal ⟨2, ![n, k]⟩ .f32) (w : FVec Ideal ⟨2, ![k, c]⟩ .f32) : FVec Ideal ⟨2, ![n, c]⟩ .f32 :=
  fun i => ∑ j : Fin k, x (ix2 (i 0) j) * w (ix2 j (i 1))

/-- A vector added to every row of a matrix. -/
def addBias (x : FVec Ideal ⟨2, ![n, c]⟩ .f32) (b : FVec Ideal ⟨1, ![c]⟩ .f32) : FVec Ideal ⟨2, ![n, c]⟩ .f32 :=
  fun i => x i + b (ix1 (i 1))

/-- The positive part of a matrix plus a vector on every row. -/
def biasRelu (x : FVec Ideal ⟨2, ![n, c]⟩ .f32) (b : FVec Ideal ⟨1, ![c]⟩ .f32) : FVec Ideal ⟨2, ![n, c]⟩ .f32 :=
  fun i => max (x i + b (ix1 (i 1))) 0

theorem mm_apply (x : FVec Ideal ⟨2, ![n, k]⟩ .f32) (w : FVec Ideal ⟨2, ![k, c]⟩ .f32) (r : Fin n) (q : Fin c) :
    mm x w (ix2 r q) = ∑ j : Fin k, x (ix2 r j) * w (ix2 j q) := rfl

/-- The host's `dot_general` of two matrices, contracting the inner axis, is the matrix product. -/
theorem hostDot_eq_mm (d : DotDims ⟨2, ![n, k]⟩ ⟨2, ![k, c]⟩ ⟨2, ![n, c]⟩)
    (wf : DotDims.WF ⟨2, ![n, k]⟩ ⟨2, ![k, c]⟩ ⟨2, ![n, c]⟩ [1] [0] [0] [1] [] [])
    (hd : d = ⟨[1], [0], [0], [1], [], [], wf⟩) (prec : Option ContractPrecision)
    (x : FVec Ideal ⟨2, ![n, k]⟩ .f32) (w : FVec Ideal ⟨2, ![k, c]⟩ .f32) :
    Host.dotGeneral d prec x w = mm x w := by
  funext i
  rw [eq_ix2 i]
  exact Cert.LibHostDot.dotGeneral_plain_apply' d wf hd prec x w (i 0) (i 1)

/-- The zero splat broadcast from a scalar reads 0 everywhere. -/
theorem zeroSplat_apply {s : Shape} (h0 : (⟨0, ![]⟩ : Shape).BroadcastsInDim s ![]) (i : s.Idx) :
    broadcastInDim s ![] h0 (constant (F := Ideal) ⟨0, ![]⟩ .f32 0x00000000#32) i = 0 := by
  rw [broadcastInDim_apply ![] h0 _ i ix0 (fun a => a.elim0), constant_apply, Ideal.ofBits_zero_f32]

/-- The host's bias: the vector broadcast to a row and then down the rows, added to the matrix. -/
theorem hostAddBias_eq (h1 : (⟨1, ![c]⟩ : Shape).BroadcastsInDim ⟨2, ![1, c]⟩ ![1])
    (h2 : (⟨2, ![1, c]⟩ : Shape).BroadcastsInDim ⟨2, ![n, c]⟩ ![0, 1])
    (x : FVec Ideal ⟨2, ![n, c]⟩ .f32) (b : FVec Ideal ⟨1, ![c]⟩ .f32) :
    addf x (broadcastInDim ⟨2, ![n, c]⟩ ![0, 1] h2 (broadcastInDim ⟨2, ![1, c]⟩ ![1] h1 b)) = addBias x b := by
  funext i
  rw [addf_apply, Cert.LibHostRows.rowBroadcast_apply h1 h2 b i]
  rfl

/-- The host's bias followed by its maximum with the zero splat is the positive part. -/
theorem hostBiasRelu_eq (h1 : (⟨1, ![c]⟩ : Shape).BroadcastsInDim ⟨2, ![1, c]⟩ ![1])
    (h2 : (⟨2, ![1, c]⟩ : Shape).BroadcastsInDim ⟨2, ![n, c]⟩ ![0, 1])
    (h0 : (⟨0, ![]⟩ : Shape).BroadcastsInDim ⟨2, ![n, c]⟩ ![])
    (x : FVec Ideal ⟨2, ![n, c]⟩ .f32) (b : FVec Ideal ⟨1, ![c]⟩ .f32) :
    maximumf (addf x (broadcastInDim ⟨2, ![n, c]⟩ ![0, 1] h2 (broadcastInDim ⟨2, ![1, c]⟩ ![1] h1 b)))
        (broadcastInDim ⟨2, ![n, c]⟩ ![] h0 (constant (F := Ideal) ⟨0, ![]⟩ .f32 0x00000000#32))
      = biasRelu x b := by
  funext i
  rw [maximumf_apply, zeroSplat_apply h0 i, hostAddBias_eq h1 h2 x b]
  rfl

/-! ## The bias given as a row

  A kernel receives the bias as the 1 × c reshape of the vector and broadcasts that row down the block's rows. -/

/-- A row added to every row of a matrix. -/
def addBiasRow (x : FVec Ideal ⟨2, ![n, c]⟩ .f32) (b : FVec Ideal ⟨2, ![1, c]⟩ .f32) : FVec Ideal ⟨2, ![n, c]⟩ .f32 :=
  fun i => x i + b (ix2 (0 : Fin 1) (i 1))

/-- The positive part of a matrix plus a row on every row. -/
def biasReluRow (x : FVec Ideal ⟨2, ![n, c]⟩ .f32) (b : FVec Ideal ⟨2, ![1, c]⟩ .f32) : FVec Ideal ⟨2, ![n, c]⟩ .f32 :=
  fun i => max (x i + b (ix2 (0 : Fin 1) (i 1))) 0

theorem addBiasRow_apply (x : FVec Ideal ⟨2, ![n, c]⟩ .f32) (b : FVec Ideal ⟨2, ![1, c]⟩ .f32) (r : Fin n) (q : Fin c) :
    addBiasRow x b (ix2 r q) = x (ix2 r q) + b (ix2 (0 : Fin 1) q) := rfl

theorem biasReluRow_apply (x : FVec Ideal ⟨2, ![n, c]⟩ .f32) (b : FVec Ideal ⟨2, ![1, c]⟩ .f32) (r : Fin n) (q : Fin c) :
    biasReluRow x b (ix2 r q) = max (x (ix2 r q) + b (ix2 (0 : Fin 1) q)) 0 := rfl

/-- The row that is the reshape of a vector adds as the vector does. -/
theorem addBiasRow_cast (h : (⟨1, ![c]⟩ : Shape).ShapeCasts ⟨2, ![1, c]⟩)
    (x : FVec Ideal ⟨2, ![n, c]⟩ .f32) (b : FVec Ideal ⟨1, ![c]⟩ .f32) :
    addBiasRow x (shapeCast ⟨2, ![1, c]⟩ b h) = addBias x b := by
  funext i
  obtain ⟨r, q, rfl⟩ : ∃ (r : Fin n) (q : Fin c), i = ix2 r q := ⟨i 0, i 1, eq_ix2 i⟩
  show x (ix2 r q) + shapeCast ⟨2, ![1, c]⟩ b h (ix2 (0 : Fin 1) q) = x (ix2 r q) + b (ix1 q)
  rw [Cert.KernelBody.shapeCast_row_apply]

theorem biasReluRow_cast (h : (⟨1, ![c]⟩ : Shape).ShapeCasts ⟨2, ![1, c]⟩)
    (x : FVec Ideal ⟨2, ![n, c]⟩ .f32) (b : FVec Ideal ⟨1, ![c]⟩ .f32) :
    biasReluRow x (shapeCast ⟨2, ![1, c]⟩ b h) = biasRelu x b := by
  funext i
  obtain ⟨r, q, rfl⟩ : ∃ (r : Fin n) (q : Fin c), i = ix2 r q := ⟨i 0, i 1, eq_ix2 i⟩
  show max (x (ix2 r q) + shapeCast ⟨2, ![1, c]⟩ b h (ix2 (0 : Fin 1) q)) 0 = max (x (ix2 r q) + b (ix1 q)) 0
  rw [Cert.KernelBody.shapeCast_row_apply]

end Cert.Layers

end
-- ==== Proof.LibGatherScatter.lean ====
/-
  Reading a host gather and a host accumulating scatter at an index, for the two index layouts that `x[idx]` and
  `segment_sum` lower to when the operand is a flat array [N] or a column [N, 1] and the indices are a column [E, 1].

  * A gather along axis 0 reads the operand at the start index, taken as a signed integer and clamped into [0, N - 1].
  * An accumulating scatter at the exact (ideal) instance leaves at element `i` the old element plus the sum of the
    updates whose index word, read as a signed integer and NOT clamped, is exactly `i`; an update whose index falls
    outside [0, N) lands nowhere.
  * A sum over a concatenated range [0, E + N) splits as the sum over [0, E) plus the sum over the shifted [0, N).
-/
import Idealize.ShloMosaic.PureOps.Ideal
import Idealize.ShloMosaic.Lib.ValueIdx
import Idealize.ShloMosaic.Lib.Pipeline.Value

noncomputable section

open scoped BigOperators

namespace Idealize.ShloMosaic.GatherScatterIdx

open Idealize.ShloMosaic Idealize.ShloMosaic.ValueIdx

/-! ## Rank-1 index sets and sums over them -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over a column index set [n, 1] is the sum over the row coordinate. -/
theorem sum_idxCol {M : Type*} [AddCommMonoid M] {n : Nat} (f : (⟨2, ![n, 1]⟩ : Shape).Idx → M) :
    ∑ i, f i = ∑ a : Fin n, f (ix2 a (0 : Fin 1)) := by
  rw [sum_idx2]
  refine Finset.sum_congr rfl fun a _ => ?_
  exact Fin.sum_univ_one _

/-- A sum over [0, T) with T = E + N is the sum over [0, E) plus the sum over E + [0, N). -/
theorem sum_fin_split {M : Type*} [AddCommMonoid M] {E N T : Nat} (hT : E + N = T) (f : Fin T → M) :
    ∑ t, f t = (∑ e : Fin E, f ⟨e.val, by omega⟩) + ∑ n : Fin N, f ⟨E + n.val, by omega⟩ := by
  subst hT
  rw [Fin.sum_univ_add]
  rfl

/-! ## The gather of a flat array at a column of indices -/

section Gather
variable {α : Type}

/-- The dimension numbers of `x[idx]` for `x : [N]`, `idx : [E, 1]`, result `[E]`. -/
abbrev rowGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Element `e` of the gather is the operand at index word `idx[e, 0]`, read signed and clamped into [0, N - 1]. -/
theorem gather_row_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (rowGather N E wf) x idx j
      = x (ix1 ⟨min (idx (ix2 (j 0) (0 : Fin 1))).toInt.toNat (N - 1), by omega⟩) := by
  unfold Host.gather
  congr 1
  funext a
  obtain rfl : a = 0 := Subsingleton.elim _ _
  refine Fin.ext ?_
  show (rowGather N E wf).start j idx 0 + (rowGather N E wf).batchCoord j 0 + (rowGather N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowGather N E wf).startIndexMap from List.mem_singleton.mpr rfl)]
  have hsi : (rowGather N E wf).siIdx j ⟨List.idxOf (0 : Fin 1) (rowGather N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The dimension numbers of `x[idx]` for a column `x : [N, 1]`, `idx : [E, 1]`, result `[E, 1]`. -/
abbrev colGather (N E : Nat) (wf : GatherDims.WF ⟨2, ![N, 1]⟩ ⟨2, ![E, 1]⟩ ⟨2, ![E, 1]⟩ [1] [0] [] [0] [] 1 ![1, 1]) :
    GatherDims ⟨2, ![N, 1]⟩ ⟨2, ![E, 1]⟩ ⟨2, ![E, 1]⟩ where
  offsetDims := [1]
  collapsedSliceDims := [0]
  operandBatchingDims := []
  startIndicesBatchingDims := []
  startIndexMap := [0]
  indexVectorDim := 1
  sliceSizes := ![1, 1]
  wf := wf

/-- Row `e` of the gathered column is the operand's row at index word `idx[e, 0]`, read signed and clamped. -/
theorem gather_col_apply {N E w : Nat} (hN : 0 < N)
    (wf : GatherDims.WF ⟨2, ![N, 1]⟩ ⟨2, ![E, 1]⟩ ⟨2, ![E, 1]⟩ [1] [0] [] [0] [] 1 ![1, 1])
    (x : (⟨2, ![N, 1]⟩ : Shape).Idx → α) (idx : IVec ⟨2, ![E, 1]⟩ w) (j : (⟨2, ![E, 1]⟩ : Shape).Idx) :
    Host.gather (colGather N E wf) x idx j
      = x (ix2 (⟨min (idx (ix2 (j 0) (0 : Fin 1))).toInt.toNat (N - 1), by omega⟩ : Fin N) (0 : Fin 1)) := by
  unfold Host.gather
  congr 1
  funext a
  match a with
  | ⟨0, _⟩ =>
    refine Fin.ext ?_
    show (colGather N E wf).start j idx 0 + (colGather N E wf).batchCoord j 0 + (colGather N E wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (colGather N E wf).startIndexMap from List.mem_singleton.mpr rfl)]
    have hsi : (colGather N E wf).siIdx j ⟨List.idxOf (0 : Fin 2) (colGather N E wf).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    show (_ : Fin 1) = _
    exact Subsingleton.elim _ _

end Gather

/-! ## The accumulating scatter into a flat array, and into a column, at a column of indices -/

section Scatter

/-- The dimension numbers of `segment_sum` into `x : [N]` at `idx : [E, 1]` with updates `[E]`. -/
abbrev rowScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on element `i` exactly when its index word, read signed, is `i`. -/
theorem resultIdx_row_iff {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (i : (⟨1, ![N]⟩ : Shape).Idx) :
    (rowScatter N E wf).resultIdx? j idx = some i ↔ (idx (ix2 (j 0) (0 : Fin 1))).toInt = ((i 0).val : Int) := by
  have hst : ∀ a, (rowScatter N E wf).start j idx a + ((rowScatter N E wf).window j a : Int)
      = (idx (ix2 (j 0) (0 : Fin 1))).toInt := by
    intro a
    obtain rfl : a = 0 := Subsingleton.elim _ _
    have hw : (rowScatter N E wf).window j 0 = 0 := by
      unfold ScatterDims.window
      rw [dif_neg (by simp [ScatterDims.sKept, Shape.kept])]
    have hs : (rowScatter N E wf).start j idx 0 = (idx (ix2 (j 0) (0 : Fin 1))).toInt := by
      unfold ScatterDims.start
      rw [dif_pos (show (0 : Fin 1) ∈ (rowScatter N E wf).scatterDimsToOperandDims from List.mem_singleton.mpr rfl)]
      have hsi : (rowScatter N E wf).siIdx j ⟨List.idxOf (0 : Fin 1) (rowScatter N E wf).scatterDimsToOperandDims,
          List.idxOf_lt_length_iff.2 (List.mem_singleton.mpr rfl)⟩ = ix2 (j 0) (0 : Fin 1) := by
        funext b; refine Fin.ext ?_
        match b with
        | ⟨0, _⟩ => rfl
        | ⟨1, _⟩ => rfl
      rw [hsi]
      rfl
    rw [hw, hs]; simp
  unfold ScatterDims.resultIdx?
  by_cases h : ∀ a, 0 ≤ (rowScatter N E wf).start j idx a + ((rowScatter N E wf).window j a : Int) ∧
      (rowScatter N E wf).start j idx a + ((rowScatter N E wf).window j a : Int) < ((⟨1, ![N]⟩ : Shape).size a : Int)
  · rw [dif_pos h]
    constructor
    · intro e
      have e0 : ((rowScatter N E wf).start j idx 0 + ((rowScatter N E wf).window j 0 : Int)).toNat = (i 0).val :=
        congrArg (fun f : (⟨1, ![N]⟩ : Shape).Idx => (f 0).val) (Option.some.inj e)
      have h0 := (h 0).1
      rw [hst 0] at e0 h0
      omega
    · intro e
      refine congrArg some ?_
      funext a
      obtain rfl : a = 0 := Subsingleton.elim _ _
      refine Fin.ext ?_
      show ((rowScatter N E wf).start j idx 0 + ((rowScatter N E wf).window j 0 : Int)).toNat = (i 0).val
      rw [hst 0, e]; simp
  · rw [dif_neg h]
    constructor
    · intro e; cases e
    · intro e
      exfalso; apply h
      intro a
      rw [hst a, e]
      obtain rfl : a = 0 := Subsingleton.elim _ _
      exact ⟨by positivity, by exact_mod_cast (i 0).isLt⟩

/-- At the exact instance element `i` of the scatter is the old element plus the sum of the updates whose index word
    is `i`. -/
theorem scatterAdd_row_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32)
    (i : (⟨1, ![N]⟩ : Shape).Idx) :
    Host.scatterAdd (F := Ideal) (rowScatter N E wf) x idx upd i
      = x i + ∑ e : Fin E, if (idx (ix2 e (0 : Fin 1))).toInt = ((i 0).val : Int) then upd (ix1 e) else 0 := by
  show x i + ∑ j ∈ Finset.univ.filter (fun j => (rowScatter N E wf).resultIdx? j idx = some i), upd j = _
  refine congrArg (x i + ·) ?_
  rw [Finset.sum_filter, sum_idx1]
  refine Finset.sum_congr rfl fun e _ => ?_
  exact if_congr (resultIdx_row_iff wf (ix1 e) idx i) rfl rfl

/-- The dimension numbers of `segment_sum` into a column `x : [N, 1]` at `idx : [E, 1]` with updates `[E, 1]`. -/
abbrev colScatter (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

/-- Update row `e` lands on row `i` exactly when its index word, read signed, is `i`. -/
theorem resultIdx_col_iff {N E w : Nat} (wf : ScatterDims.WF ⟨2, ![N, 1]⟩ ⟨2, ![E, 1]⟩ ⟨2, ![E, 1]⟩ [1] [0] [0] 1)
    (j : (⟨2, ![E, 1]⟩ : Shape).Idx) (idx : IVec ⟨2, ![E, 1]⟩ w) (i : (⟨2, ![N, 1]⟩ : Shape).Idx) :
    (colScatter N E wf).resultIdx? j idx = some i ↔ (idx (ix2 (j 0) (0 : Fin 1))).toInt = ((i 0).val : Int) := by
  have hst0 : (colScatter N E wf).start j idx 0 + ((colScatter N E wf).window j 0 : Int)
      = (idx (ix2 (j 0) (0 : Fin 1))).toInt := by
    have hw : (colScatter N E wf).window j 0 = 0 := by
      unfold ScatterDims.window
      rw [dif_neg (by simp [ScatterDims.sKept, Shape.kept])]
    have hs : (colScatter N E wf).start j idx 0 = (idx (ix2 (j 0) (0 : Fin 1))).toInt := by
      unfold ScatterDims.start
      rw [dif_pos (show (0 : Fin 2) ∈ (colScatter N E wf).scatterDimsToOperandDims from List.mem_singleton.mpr rfl)]
      have hsi : (colScatter N E wf).siIdx j ⟨List.idxOf (0 : Fin 2) (colScatter N E wf).scatterDimsToOperandDims,
          List.idxOf_lt_length_iff.2 (List.mem_singleton.mpr rfl)⟩ = ix2 (j 0) (0 : Fin 1) := by
        funext b; refine Fin.ext ?_
        match b with
        | ⟨0, _⟩ => rfl
        | ⟨1, _⟩ => rfl
      rw [hsi]
      rfl
    rw [hw, hs]; simp
  have hst1 : (colScatter N E wf).start j idx 1 + ((colScatter N E wf).window j 1 : Int) = 0 := by
    have hw : (colScatter N E wf).window j 1 = 0 := by
      unfold ScatterDims.window
      rw [dif_pos (by simp [ScatterDims.sKept, Shape.kept])]
      have := (j 1).isLt
      show (j 1).val = 0
      have h1 : (j 1).val < 1 := this
      omega
    have hs : (colScatter N E wf).start j idx 1 = 0 := by
      unfold ScatterDims.start
      rw [dif_neg (fun h => absurd (congrArg Fin.val (List.mem_singleton.mp h)) (by simp))]
    rw [hw, hs]; simp
  have hi1 : (i 1).val = 0 := by
    have h1 : (i 1).val < 1 := (i 1).isLt
    omega
  unfold ScatterDims.resultIdx?
  by_cases h : ∀ a, 0 ≤ (colScatter N E wf).start j idx a + ((colScatter N E wf).window j a : Int) ∧
      (colScatter N E wf).start j idx a + ((colScatter N E wf).window j a : Int) < ((⟨2, ![N, 1]⟩ : Shape).size a : Int)
  · rw [dif_pos h]
    constructor
    · intro e
      have e0 : ((colScatter N E wf).start j idx 0 + ((colScatter N E wf).window j 0 : Int)).toNat = (i 0).val :=
        congrArg (fun f : (⟨2, ![N, 1]⟩ : Shape).Idx => (f 0).val) (Option.some.inj e)
      have h0 := (h 0).1
      rw [hst0] at e0 h0
      omega
    · intro e
      refine congrArg some ?_
      funext a
      refine Fin.ext ?_
      match a with
      | ⟨0, _⟩ =>
        show ((colScatter N E wf).start j idx 0 + ((colScatter N E wf).window j 0 : Int)).toNat = (i 0).val
        rw [hst0, e]; simp
      | ⟨1, _⟩ =>
        show ((colScatter N E wf).start j idx 1 + ((colScatter N E wf).window j 1 : Int)).toNat = (i 1).val
        rw [hst1, hi1]; rfl
  · rw [dif_neg h]
    constructor
    · intro e; cases e
    · intro e
      exfalso; apply h
      intro a
      match a with
      | ⟨0, _⟩ =>
        show 0 ≤ (colScatter N E wf).start j idx 0 + ((colScatter N E wf).window j 0 : Int) ∧
          (colScatter N E wf).start j idx 0 + ((colScatter N E wf).window j 0 : Int) < ((⟨2, ![N, 1]⟩ : Shape).size 0 : Int)
        rw [hst0, e]
        exact ⟨by positivity, by exact_mod_cast (i 0).isLt⟩
      | ⟨1, _⟩ =>
        show 0 ≤ (colScatter N E wf).start j idx 1 + ((colScatter N E wf).window j 1 : Int) ∧
          (colScatter N E wf).start j idx 1 + ((colScatter N E wf).window j 1 : Int) < ((⟨2, ![N, 1]⟩ : Shape).size 1 : Int)
        rw [hst1]
        exact ⟨le_refl _, Int.natCast_pos.mpr Nat.one_pos⟩

/-- At the exact instance row `i` of the scattered column is the old row plus the sum of the update rows whose index
    word is `i`. -/
theorem scatterAdd_col_apply {N E w : Nat} (wf : ScatterDims.WF ⟨2, ![N, 1]⟩ ⟨2, ![E, 1]⟩ ⟨2, ![E, 1]⟩ [1] [0] [0] 1)
    (x : FVec Ideal ⟨2, ![N, 1]⟩ .f32) (idx : IVec ⟨2, ![E, 1]⟩ w) (upd : FVec Ideal ⟨2, ![E, 1]⟩ .f32)
    (i : (⟨2, ![N, 1]⟩ : Shape).Idx) :
    Host.scatterAdd (F := Ideal) (colScatter N E wf) x idx upd i
      = x i + ∑ e : Fin E, if (idx (ix2 e (0 : Fin 1))).toInt = ((i 0).val : Int) then upd (ix2 e (0 : Fin 1)) else 0 := by
  show x i + ∑ j ∈ Finset.univ.filter (fun j => (colScatter N E wf).resultIdx? j idx = some i), upd j = _
  refine congrArg (x i + ·) ?_
  rw [Finset.sum_filter, sum_idxCol]
  refine Finset.sum_congr rfl fun e _ => ?_
  exact if_congr (resultIdx_col_iff wf (ix2 e (0 : Fin 1)) idx i) rfl rfl

end Scatter

end Idealize.ShloMosaic.GatherScatterIdx

end
-- ==== Proof.LibKeepdims.lean ====
/-
  Rank-2 vectors with a kept column, read at an index: the cast of a length-`a` vector to a column [a, 1], the
  broadcast of a column [a, 1] along the rows of [a, b], and the sum and the maximum of each row of an [a, b]
  vector over the extended reals.  Each says which ONE operand entry (or which row of entries) a result entry reads.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type} {a b : ℕ}

/-- Entry `(n, 0)` of the column cast of a vector is the vector's entry `n`: both sit at row-major position `n`. -/
theorem shapeCast_col_apply (x : (⟨1, ![a]⟩ : Shape).Idx → α) (h : (⟨1, ![a]⟩ : Shape).ShapeCasts ⟨2, ![a, 1]⟩) (n : Fin a) :
    shapeCast ⟨2, ![a, 1]⟩ x h (ix2 n (0 : Fin 1)) = x (ix1 n) :=
  shapeCast_apply x h (ix2 n (0 : Fin 1)) (ix1 n) (by
    rw [Shape.rowMajor_val_one, Shape.rowMajor_val_two]
    show n.val = n.val * 1 + 0
    omega)

/-- Entry `(n, d)` of a column broadcast along the rows is the column's entry `(n, 0)`. -/
theorem broadcastTo_col_apply (x : (⟨2, ![a, 1]⟩ : Shape).Idx → α) (h : (⟨2, ![a, 1]⟩ : Shape).Broadcasts ⟨2, ![a, b]⟩)
    (n : Fin a) (d : Fin b) : broadcastTo ⟨2, ![a, b]⟩ x h (ix2 n d) = x (ix2 n (0 : Fin 1)) :=
  broadcastTo_apply x h (ix2 n d) (ix2 n (0 : Fin 1)) (fun k => by
    match k with
    | ⟨0, _⟩ =>
      show n.val = if a = 1 then 0 else n.val
      have := n.isLt
      split <;> omega
    | ⟨1, _⟩ => rfl)

/-- The reduced index `n` of a row reduction with the column `k` put back is `(n, k)`. -/
theorem lift_row (h : (⟨2, ![a, b]⟩ : Shape).Reduces [1] ⟨1, ![a]⟩) (n : Fin a) (k : Fin b) :
    h.lift (ix1 n) k = ix2 n k := by
  funext c; apply Fin.ext
  fin_cases c <;> rfl

variable {φ : FTy}

/-- A row sum at row `n` is the sum of that row's entries. -/
theorem rowsum_apply (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (n : Fin a) :
    multiReduction .add [1] ⟨1, ![a]⟩ src acc h hφ hacc (ix1 n) = ∑ k : Fin b, src (ix2 n k) :=
  (Ideal.multiReduction_add_single src acc h hφ hacc (ix1 n)).trans
    (Finset.sum_congr rfl fun k _ => congrArg src (lift_row h n k))

/-- A row maximum at row `n` is the fold of `max` over that row's entries from the accumulator's value. -/
theorem rowmax_apply (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (n : Fin a) :
    multiReduction .maximumf [1] ⟨1, ![a]⟩ src acc h hφ hacc (ix1 n)
      = (Finset.univ : Finset (Fin b)).fold max (Ideal.ofBits φ acc) (fun k => src (ix2 n k)) :=
  (Ideal.multiReduction_maximumf_single src acc h hφ hacc (ix1 n)).trans
    (congrArg (fun f => (Finset.univ : Finset (Fin b)).fold max (Ideal.ofBits φ acc) f)
      (funext fun k => congrArg src (lift_row h n k)))

end Cert.LibKeepdims

end
-- ==== Proof.LibColForms.lean ====
/-
  A length-`n` vector made into a column [n, 1] in two ways — by a reshape, or by a broadcast that places the
  vector's axis on axis 0 of the column — is the same column: entry (r, 0) of either is the vector's entry r.
-/
import Idealize.ShloMosaic.Lib.Pipeline.Value
import Idealize.ShloMosaic.Lib.ValueIdx
import proofs.«118519_j34136400069037_1_alg».proof.Proof.LibKeepdims

noncomputable section

namespace Cert.LibColForms

open Idealize.ShloMosaic Idealize.ShloMosaic.ValueIdx

variable {α : Type} {n : ℕ}

/-- The column broadcast of a vector read at (r, 0) is the vector's entry r. -/
theorem broadcastInDim_col_apply (x : (⟨1, ![n]⟩ : Shape).Idx → α) (dims : Fin 1 → Fin 2) (hd : dims 0 = 0)
    (hb : (⟨1, ![n]⟩ : Shape).BroadcastsInDim ⟨2, ![n, 1]⟩ dims) (r : Fin n) :
    broadcastInDim ⟨2, ![n, 1]⟩ dims hb x (ix2 r (0 : Fin 1)) = x (ix1 r) :=
  broadcastInDim_apply dims hb x (ix2 r (0 : Fin 1)) (ix1 r) (fun a => by
    match a with
    | ⟨0, _⟩ =>
      show r.val = if n = 1 then 0 else ((ix2 r (0 : Fin 1)) (dims 0)).val
      rw [hd]
      show r.val = if n = 1 then 0 else r.val
      have := r.isLt
      split <;> omega)

/-- The reshape of a vector to a column is its column broadcast. -/
theorem shapeCast_col_eq_broadcastInDim (x : (⟨1, ![n]⟩ : Shape).Idx → α)
    (h : (⟨1, ![n]⟩ : Shape).ShapeCasts ⟨2, ![n, 1]⟩) (dims : Fin 1 → Fin 2) (hd : dims 0 = 0)
    (hb : (⟨1, ![n]⟩ : Shape).BroadcastsInDim ⟨2, ![n, 1]⟩ dims) :
    shapeCast ⟨2, ![n, 1]⟩ x h = broadcastInDim ⟨2, ![n, 1]⟩ dims hb x := by
  funext j
  obtain ⟨r, z, rfl⟩ : ∃ (r : Fin n) (z : Fin 1), j = ix2 r z := ⟨j 0, j 1, eq_ix2 j⟩
  obtain rfl : z = 0 := Subsingleton.elim _ _
  rw [Cert.LibKeepdims.shapeCast_col_apply, broadcastInDim_col_apply x dims hd hb r]

end Cert.LibColForms

end
-- ==== Proof.LibSageLayers.lean ====
/-
  What one GraphSAGE-style layer and the output head compute, as functions of whole arrays over the extended reals,
  and the one place where the two programs arrange their arithmetic differently: the neighbour count.

  * A layer takes node features x, aggregated neighbour means, two weight matrices and a bias, and returns the
    positive part of (x · wl + mean · wr) + b, the bias added to every row.  The head is h · wo + bo.
  * A kernel block receives the bias as a one-row matrix; the row that is the reshape of the bias vector acts as the
    vector does.
  * The number of edges arriving at a node is a sum of ones scattered by destination index.  One program scatters into
    a flat array [N] and then turns the result into a column; the other scatters into a column [N, 1] directly.
    Entry (r, 0) of either column is max (∑ over the edges whose destination word is r of 1) 1: an edge whose
    destination falls outside [0, N) is dropped by both.
  The extents are arbitrary naturals; nothing here depends on a program.
-/
import Idealize.ShloMosaic.Lib.Pipeline.Value
import Idealize.ShloMosaic.Lib.ValueIdx
import Idealize.ShloMosaic.PureOps.Ideal.Laws
import proofs.«118519_j34136400069037_1_alg».proof.Proof.LibDenseLayers
import proofs.«118519_j34136400069037_1_alg».proof.Proof.LibGatherScatter
import proofs.«118519_j34136400069037_1_alg».proof.Proof.LibColForms

noncomputable section

open scoped BigOperators

namespace Cert.Sage

open Idealize.ShloMosaic Idealize.ShloMosaic.ValueIdx Idealize.ShloMosaic.GatherScatterIdx Cert.Layers

variable {n k c : ℕ}

/-- One layer with the bias a vector: max ((x · wl + mean · wr) + b) 0. -/
def layer (x mean : FVec Ideal ⟨2, ![n, k]⟩ .f32) (wl wr : FVec Ideal ⟨2, ![k, c]⟩ .f32)
    (b : FVec Ideal ⟨1, ![c]⟩ .f32) : FVec Ideal ⟨2, ![n, c]⟩ .f32 :=
  biasRelu (addf (mm x wl) (mm mean wr)) b

/-- The same layer with the bias a one-row matrix. -/
def layerRow (x mean : FVec Ideal ⟨2, ![n, k]⟩ .f32) (wl wr : FVec Ideal ⟨2, ![k, c]⟩ .f32)
    (b : FVec Ideal ⟨2, ![1, c]⟩ .f32) : FVec Ideal ⟨2, ![n, c]⟩ .f32 :=
  biasReluRow (addf (mm x wl) (mm mean wr)) b

/-- The output head with the bias a vector: h · wo + bo. -/
def head (h : FVec Ideal ⟨2, ![n, k]⟩ .f32) (wo : FVec Ideal ⟨2, ![k, c]⟩ .f32)
    (bo : FVec Ideal ⟨1, ![c]⟩ .f32) : FVec Ideal ⟨2, ![n, c]⟩ .f32 :=
  addBias (mm h wo) bo

/-- The output head with the bias a one-row matrix. -/
def headRow (h : FVec Ideal ⟨2, ![n, k]⟩ .f32) (wo : FVec Ideal ⟨2, ![k, c]⟩ .f32)
    (bo : FVec Ideal ⟨2, ![1, c]⟩ .f32) : FVec Ideal ⟨2, ![n, c]⟩ .f32 :=
  addBiasRow (mm h wo) bo

/-- A layer whose bias row is the reshape of a vector is the layer of that vector. -/
theorem layerRow_cast (hc : (⟨1, ![c]⟩ : Shape).ShapeCasts ⟨2, ![1, c]⟩)
    (x mean : FVec Ideal ⟨2, ![n, k]⟩ .f32) (wl wr : FVec Ideal ⟨2, ![k, c]⟩ .f32) (b : FVec Ideal ⟨1, ![c]⟩ .f32) :
    layerRow x mean wl wr (shapeCast ⟨2, ![1, c]⟩ b hc) = layer x mean wl wr b :=
  biasReluRow_cast hc _ b

/-- A head whose bias row is the reshape of a vector is the head of that vector. -/
theorem headRow_cast (hc : (⟨1, ![c]⟩ : Shape).ShapeCasts ⟨2, ![1, c]⟩)
    (h : FVec Ideal ⟨2, ![n, k]⟩ .f32) (wo : FVec Ideal ⟨2, ![k, c]⟩ .f32) (bo : FVec Ideal ⟨1, ![c]⟩ .f32) :
    headRow h wo (shapeCast ⟨2, ![1, c]⟩ bo hc) = head h wo bo :=
  addBiasRow_cast hc _ bo

/-! ## The neighbour count, scattered flat or as a column -/

/-- A scalar constant broadcast to any shape reads the constant everywhere. -/
theorem splat_apply {s : Shape} (w : BitVec 32) (h0 : (⟨0, ![]⟩ : Shape).BroadcastsInDim s ![]) (i : s.Idx) :
    broadcastInDim s ![] h0 (constant (F := Ideal) ⟨0, ![]⟩ .f32 w) i = Ideal.ofBits .f32 w := by
  rw [broadcastInDim_apply ![] h0 _ i ix0 (fun a => a.elim0), constant_apply]

/-- The count scattered into a flat array, floored at one and made a column, is the count scattered into a column and
    floored at one: at row r both are max (0 + ∑ over the edges with destination word r of 1) 1. -/
theorem countColumn_eq {N E w : ℕ}
    (wfr : ScatterDims.WF ⟨1, ![N]⟩ ⟨2, ![E, 1]⟩ ⟨1, ![E]⟩ [] [0] [0] 1)
    (wfc : ScatterDims.WF ⟨2, ![N, 1]⟩ ⟨2, ![E, 1]⟩ ⟨2, ![E, 1]⟩ [1] [0] [0] 1)
    (idx : IVec ⟨2, ![E, 1]⟩ w) (dims : Fin 1 → Fin 2) (hd : dims 0 = 0)
    (hb : (⟨1, ![N]⟩ : Shape).BroadcastsInDim ⟨2, ![N, 1]⟩ dims)
    (hN : (⟨0, ![]⟩ : Shape).BroadcastsInDim ⟨1, ![N]⟩ ![]) (hE : (⟨0, ![]⟩ : Shape).BroadcastsInDim ⟨1, ![E]⟩ ![])
    (hN1 : (⟨0, ![]⟩ : Shape).BroadcastsInDim ⟨2, ![N, 1]⟩ ![]) (hE1 : (⟨0, ![]⟩ : Shape).BroadcastsInDim ⟨2, ![E, 1]⟩ ![]) :
    broadcastInDim ⟨2, ![N, 1]⟩ dims hb
        (maximumf
          (Host.scatterAdd (F := Ideal) (rowScatter N E wfr)
            (broadcastInDim ⟨1, ![N]⟩ ![] hN (constant (F := Ideal) ⟨0, ![]⟩ .f32 0x00000000#32)) idx
            (broadcastInDim ⟨1, ![E]⟩ ![] hE (constant (F := Ideal) ⟨0, ![]⟩ .f32 0x3F800000#32)))
          (broadcastInDim ⟨1, ![N]⟩ ![] hN (constant (F := Ideal) ⟨0, ![]⟩ .f32 0x3F800000#32)))
      = maximumf
          (Host.scatterAdd (F := Ideal) (colScatter N E wfc)
            (broadcastInDim ⟨2, ![N, 1]⟩ ![] hN1 (constant (F := Ideal) ⟨0, ![]⟩ .f32 0x00000000#32)) idx
            (broadcastInDim ⟨2, ![E, 1]⟩ ![] hE1 (constant (F := Ideal) ⟨0, ![]⟩ .f32 0x3F800000#32)))
          (broadcastInDim ⟨2, ![N, 1]⟩ ![] hN1 (constant (F := Ideal) ⟨0, ![]⟩ .f32 0x3F800000#32)) := by
  funext j
  obtain ⟨r, z, rfl⟩ : ∃ (r : Fin N) (z : Fin 1), j = ix2 r z := ⟨j 0, j 1, eq_ix2 j⟩
  obtain rfl : z = 0 := Subsingleton.elim _ _
  rw [Cert.LibColForms.broadcastInDim_col_apply _ dims hd hb r, maximumf_apply, maximumf_apply,
    scatterAdd_row_apply, scatterAdd_col_apply]
  simp only [splat_apply]
  rfl

end Cert.Sage

end
-- ==== Proof.KernelBody.lean ====
/-
  What each kernel body stores, as a function of the blocks it loads, over the extended reals.

  A change of float format is the identity there, a reshape to the same shape is the identity, and a matrix product
  accumulated into the zero splat is the plain sum over the contracted coordinate.  So the first body stores the layer
  max ((x · wl + mean · wr) + b) 0 of its blocks, the bias given as a one-row matrix broadcast down the block's rows,
  and the second body stores the head (that layer) · wo + bo, the scalar bias given as a 1 × 1 matrix.
-/
import proofs.«118519_j34136400069037_1_alg».proof.Proof.Gen.KernelIdeal.Skeleton
import proofs.«118519_j34136400069037_1_alg».proof.Proof.LibSageLayers

noncomputable section

open scoped BigOperators

namespace Cert.KernelIdeal.Body

open Idealize.ShloMosaic Idealize.ShloMosaic.ValueIdx Cert.KernelIdeal Cert.KernelIdeal.Gen Cert.Layers Cert.Sage

/-- The 5000 × 128 by 128 × 128 product's record, spelt by its fields. -/
theorem dotSquare_eq : dot_S5000x128_S128x128_S5000x128_1_0_0_1_n_n
    = ⟨[1], [0], [0], [1], [], [], Facts₀.dot_S5000x128_S128x128_S5000x128_1_0_0_1_n_n_wf⟩ := rfl

/-- The 5000 × 128 by 128 × 1 product's record, spelt by its fields. -/
theorem dotColumn_eq : dot_S5000x128_S128x1_S5000x1_1_0_0_1_n_n
    = ⟨[1], [0], [0], [1], [], [], Facts₀.dot_S5000x128_S128x1_S5000x1_1_0_0_1_n_n_wf⟩ := rfl

/-- The scalar zero of the bodies is the real 0. -/
theorem scalarZero : (Scalar.ofBits (F := Ideal) .f32 0x00000000#32 : Ideal .f32) = 0 := Ideal.ofBits_zero_f32

/-- The layer as a body spells it — two products into zero accumulators, added, the bias row broadcast down the
    rows and added, the maximum with the zero splat — read at (p, q). -/
theorem layerTerm (x0 x1 : FVec Ideal S5000x128 .f32) (x2 x3 : FVec Ideal S128x128 .f32) (x4 : FVec Ideal S1x128 .f32)
    (p : Fin 5000) (q : Fin 128) :
    maximumf
        (addf
          (addf
            (matmul dot_S5000x128_S128x128_S5000x128_1_0_0_1_n_n none (truncf .bf16 x0 bitsLt_bf16_f32)
              (truncf .bf16 x2 bitsLt_bf16_f32) (constant (F := Ideal) S5000x128 .f32 0x00000000#32))
            (matmul dot_S5000x128_S128x128_S5000x128_1_0_0_1_n_n none (truncf .bf16 x1 bitsLt_bf16_f32)
              (truncf .bf16 x3 bitsLt_bf16_f32) (constant (F := Ideal) S5000x128 .f32 0x00000000#32)))
          (broadcastTo S5000x128 x4 broadcasts_S1x128_S5000x128))
        (broadcast S5000x128 (Scalar.ofBits (F := Ideal) .f32 0x00000000#32)) (ix2 p q)
      = layerRow x0 x1 x2 x3 x4 (ix2 p q) := by
  rw [dotSquare_eq, maximumf_apply, addf_apply, addf_apply, broadcast_apply, scalarZero,
    Cert.KernelBody.matmul_plain_zero_apply, Cert.KernelBody.matmul_plain_zero_apply,
    Cert.KernelBody.broadcastTo_row_apply]
  simp only [truncf_apply]
  rfl

/-- The first body's stored block is the layer of its loaded blocks. -/
theorem layerBlock (x0 x1 : FVec Ideal S5000x128 .f32) (x2 x3 : FVec Ideal S128x128 .f32) (x4 : FVec Ideal S1x128 .f32) :
    k0_pay1 (F := Ideal) x0 x1 x2 x3 x4 = layerRow x0 x1 x2 x3 x4 := by
  funext i
  obtain ⟨p, q, rfl⟩ : ∃ (p : Fin 5000) (q : Fin 128), i = ix2 p q := ⟨i 0, i 1, eq_ix2 i⟩
  unfold k0_pay1
  simp only [shapeCast_self]
  exact layerTerm x0 x1 x2 x3 x4 p q

/-- The second body's stored block is the head of the layer of its loaded blocks. -/
theorem headBlock (v0 v3 : FVec Ideal S5000x128 .f32) (v6 v9 : FVec Ideal S128x128 .f32) (v15 : FVec Ideal S1x128 .f32)
    (v21 : FVec Ideal S128x1 .f32) (v26 : FVec Ideal S1x1 .f32) :
    k1_pay1 (F := Ideal) v0 v3 v6 v9 v15 v21 v26 = headRow (layerRow v0 v3 v6 v9 v15) v21 v26 := by
  funext i
  obtain ⟨p, z, rfl⟩ : ∃ (p : Fin 5000) (z : Fin 1), i = ix2 p z := ⟨i 0, i 1, eq_ix2 i⟩
  unfold k1_pay1
  simp only [shapeCast_self]
  rw [dotColumn_eq, addf_apply, Cert.KernelBody.matmul_plain_zero_apply, Cert.KernelBody.broadcastTo_row_apply]
  simp only [truncf_apply, layerTerm]
  rfl

end Cert.KernelIdeal.Body

end
-- ==== Proof.LibRowLocal.lean ====
/-
  Rows are independent.  Row r of a layer depends on x and on the neighbour means only through their row r, and row r
  of the head depends on its input only through row r: each entry is a sum over the columns of that one row.  So a
  block of rows cut out of the inputs gives the same rows of the result, whatever the other rows hold.  The two arrays
  may have different numbers of rows; r' names the row inside the block and r the same row in the whole array.
-/
import proofs.«118519_j34136400069037_1_alg».proof.Proof.LibSageLayers

noncomputable section

open scoped BigOperators

namespace Cert.Sage

open Idealize.ShloMosaic Idealize.ShloMosaic.ValueIdx Cert.Layers

variable {n n' k c : ℕ}

/-- Entry (r, q) of a layer, written out. -/
theorem layerRow_apply (x m : FVec Ideal ⟨2, ![n, k]⟩ .f32) (wl wr : FVec Ideal ⟨2, ![k, c]⟩ .f32)
    (b : FVec Ideal ⟨2, ![1, c]⟩ .f32) (r : Fin n) (q : Fin c) :
    layerRow x m wl wr b (ix2 r q)
      = max (((∑ j : Fin k, x (ix2 r j) * wl (ix2 j q)) + ∑ j : Fin k, m (ix2 r j) * wr (ix2 j q)) + b (ix2 (0 : Fin 1) q)) 0 := rfl

/-- Entry (r, q) of the head, written out. -/
theorem headRow_apply (h : FVec Ideal ⟨2, ![n, k]⟩ .f32) (wo : FVec Ideal ⟨2, ![k, c]⟩ .f32)
    (bo : FVec Ideal ⟨2, ![1, c]⟩ .f32) (r : Fin n) (q : Fin c) :
    headRow h wo bo (ix2 r q) = (∑ j : Fin k, h (ix2 r j) * wo (ix2 j q)) + bo (ix2 (0 : Fin 1) q) := rfl

/-- A layer's row r' computed from a block whose row r' is row r of the whole inputs is row r of the whole layer. -/
theorem layerRow_row (X M : FVec Ideal ⟨2, ![n, k]⟩ .f32) (x m : FVec Ideal ⟨2, ![n', k]⟩ .f32)
    (wl wr : FVec Ideal ⟨2, ![k, c]⟩ .f32) (b : FVec Ideal ⟨2, ![1, c]⟩ .f32) (r : Fin n) (r' : Fin n') (q : Fin c)
    (hx : ∀ j : Fin k, x (ix2 r' j) = X (ix2 r j)) (hm : ∀ j : Fin k, m (ix2 r' j) = M (ix2 r j)) :
    layerRow x m wl wr b (ix2 r' q) = layerRow X M wl wr b (ix2 r q) := by
  rw [layerRow_apply, layerRow_apply]
  simp only [hx, hm]

/-- The head's row r' computed from a block whose row r' is row r of the whole input is row r of the whole head. -/
theorem headRow_row (H : FVec Ideal ⟨2, ![n, k]⟩ .f32) (h : FVec Ideal ⟨2, ![n', k]⟩ .f32)
    (wo : FVec Ideal ⟨2, ![k, c]⟩ .f32) (bo : FVec Ideal ⟨2, ![1, c]⟩ .f32) (r : Fin n) (r' : Fin n') (q : Fin c)
    (hh : ∀ j : Fin k, h (ix2 r' j) = H (ix2 r j)) :
    headRow h wo bo (ix2 r' q) = headRow H wo bo (ix2 r q) := by
  rw [headRow_apply, headRow_apply]
  simp only [hh]

end Cert.Sage

end
-- ==== Proof.KernelBlocks.lean ====
/-
  From blocks to arrays, for each of the two regions, at any contents V the region is entered with.

  Grid point t of either region takes rows 5000·t … 5000·t + 4999 of its two row-tiled inputs, the weight matrices and
  the bias rows whole, and writes back rows 5000·t … 5000·t + 4999 of its output.  A row of the layer (and of the head)
  depends on the inputs only through that row, so what point t writes back is block t of ONE function of the whole
  input arrays; the twenty blocks tile the output's 100000 rows, so after the region the output array is that function.
-/
import proofs.«118519_j34136400069037_1_alg».proof.Proof.GenP.KernelIdeal.Frame
import proofs.«118519_j34136400069037_1_alg».proof.Proof.KernelBody
import proofs.«118519_j34136400069037_1_alg».proof.Proof.LibRowLocal
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.GenP Cert.Sage

variable (V : (c : Dev nD) → (b : Ref sig .tc) → Buf (Elt Ideal) ((c : Thread nD τ).loc b))

theorem zeroOffsets : (![0, 0] : Fin 2 → Nat) = fun _ => 0 := funext fun a => by fin_cases a <;> rfl

/-! ## Region 0: the first layer -/

/-- The printed index maps of region 0, decided over the grid: the row-tiled windows sit at block row t, every other
    block index is 0. -/
theorem indexMaps0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem points0 (t : Fin cfg0.N) : t.val < 20 := by
  have h : t.val < cfg0.N := t.isLt
  have e : cfg0.N = 20 := N_0
  omega

/-- What the first layer leaves in its output array, as a function of the arrays the region finds. -/
abbrev layerOf (c : Dev nD) : S100000x128.Idx → Elt Ideal .f32 :=
  layerRow (V c main_arg0) (V c main_v30) (V c main_v4) (V c main_v5) (V c main_v9)

/-- What point t of region 0 writes back is block t of the layer of the whole arrays. -/
theorem flushed0 (c : Dev nD) (t : Fin cfg0.N) :
    (dat0 V c).flushed 5 t = ((cfg0.win 5).blk t).view.read (Elt Ideal) (layerOf V c) := by
  show (cfg0.win 5).cut (grid0.coords t) ((dat0 V c).after 5 t) = _
  rw [after0_5]
  unfold out0_5
  rw [View.canon_unit_zero zeroOffsets]
  simp only [View.ld_unit_zero (S := S5000x128) zeroOffsets, View.ld_unit_zero (S := S128x128) zeroOffsets,
    View.ld_unit_zero (S := S1x128) zeroOffsets]
  rw [Cert.KernelIdeal.Body.layerBlock]
  obtain ⟨e0, e1, e2, e3, e4, e5, e6, e7, e8, e9, e10, e11⟩ := indexMaps0 t
  have ht := points0 t
  funext y
  obtain ⟨p, q, rfl⟩ : ∃ (p : Fin 5000) (q : Fin 128), y = ix2 p q := ⟨y 0, y 1, eq_ix2 y⟩
  have hp := p.isLt
  have hr : t.val * 5000 + p.val < 100000 := by omega
  show layerRow (iblk0 V c 0 t) (iblk0 V c 1 t) (iblk0 V c 2 t) (iblk0 V c 3 t) (iblk0 V c 4 t) (ix2 p q)
      = layerOf V c (((cfg0.win 5).blk t).view.emb (ix2 p q))
  have hemb : ((cfg0.win 5).blk t).view.emb (ix2 p q) = ix2 (⟨t.val * 5000 + p.val, hr⟩ : Fin 100000) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  rw [hemb]
  have h2 : iblk0 V c 2 t = V c main_v4 := by
    funext z
    show V c main_v4 (((cfg0.win 2).blk t).view.emb z) = V c main_v4 z
    refine congrArg (V c main_v4) ?_
    funext a; apply Fin.ext
    match a with
    | ⟨0, _⟩ => show win0_2.index t (0 : Fin 2) * 128 + 1 * (z 0).val = (z 0).val; omega
    | ⟨1, _⟩ => show win0_2.index t (1 : Fin 2) * 128 + 1 * (z 1).val = (z 1).val; omega
  have h3 : iblk0 V c 3 t = V c main_v5 := by
    funext z
    show V c main_v5 (((cfg0.win 3).blk t).view.emb z) = V c main_v5 z
    refine congrArg (V c main_v5) ?_
    funext a; apply Fin.ext
    match a with
    | ⟨0, _⟩ => show win0_3.index t (0 : Fin 2) * 128 + 1 * (z 0).val = (z 0).val; omega
    | ⟨1, _⟩ => show win0_3.index t (1 : Fin 2) * 128 + 1 * (z 1).val = (z 1).val; omega
  have h4 : iblk0 V c 4 t = V c main_v9 := by
    funext z
    show V c main_v9 (((cfg0.win 4).blk t).view.emb z) = V c main_v9 z
    refine congrArg (V c main_v9) ?_
    funext a; apply Fin.ext
    match a with
    | ⟨0, _⟩ => show win0_4.index t (0 : Fin 2) * 1 + 1 * (z 0).val = (z 0).val; omega
    | ⟨1, _⟩ => show win0_4.index t (1 : Fin 2) * 128 + 1 * (z 1).val = (z 1).val; omega
  have hx : ∀ j : Fin 128, iblk0 V c 0 t (ix2 p j) = V c main_arg0 (ix2 (⟨t.val * 5000 + p.val, hr⟩ : Fin 100000) j) := fun j => by
    show V c main_arg0 (((cfg0.win 0).blk t).view.emb (ix2 p j)) = _
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * j.val = j.val; omega
  have hm : ∀ j : Fin 128, iblk0 V c 1 t (ix2 p j) = V c main_v30 (ix2 (⟨t.val * 5000 + p.val, hr⟩ : Fin 100000) j) := fun j => by
    show V c main_v30 (((cfg0.win 1).blk t).view.emb (ix2 p j)) = _
    refine congrArg (V c main_v30) ?_
    funext a; apply Fin.ext
    match a with
    | ⟨0, _⟩ => show win0_1.index t (0 : Fin 2) * 5000 + 1 * p.val = t.val * 5000 + p.val; omega
    | ⟨1, _⟩ => show win0_1.index t (1 : Fin 2) * 128 + 1 * j.val = j.val; omega
  rw [h2, h3, h4]
  exact layerRow_row (n := 100000) (n' := 5000) (k := 128) (c := 128) (V c main_arg0) (V c main_v30)
    (iblk0 V c 0 t) (iblk0 V c 1 t) (V c main_v4) (V c main_v5) (V c main_v9) ⟨t.val * 5000 + p.val, hr⟩ p q hx hm

/-- An index of the output array is in point t's block iff each coordinate is in the block's range on its axis. -/
theorem mem_block0 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v31).slice (win0_5.rect t)).set ↔ _
  rw [View.set_slice_whole, Rect.mem_set_unit]
  exact Iff.rfl

/-- Every row of the output lies in the block of the point that is the row number divided by 5000. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 5000 < cfg0.N := by rw [show cfg0.N = 20 from N_0]; omega
  refine ⟨⟨(i 0).val / 5000, hN⟩, flush0_5 _, ?_⟩
  rw [mem_block0]
  obtain ⟨-, -, -, -, -, -, -, -, -, -, e10, e11⟩ := indexMaps0 ⟨(i 0).val / 5000, hN⟩
  intro a
  match a with
  | ⟨0, _⟩ =>
    show win0_5.index ⟨(i 0).val / 5000, hN⟩ (0 : Fin 2) * 5000 ≤ (i 0).val
      ∧ (i 0).val < win0_5.index ⟨(i 0).val / 5000, hN⟩ (0 : Fin 2) * 5000 + 5000
    rw [e10]
    show (i 0).val / 5000 * 5000 ≤ (i 0).val ∧ (i 0).val < (i 0).val / 5000 * 5000 + 5000
    omega
  | ⟨1, _⟩ =>
    show win0_5.index ⟨(i 0).val / 5000, hN⟩ (1 : Fin 2) * 128 ≤ (i 1).val
      ∧ (i 1).val < win0_5.index ⟨(i 0).val / 5000, hN⟩ (1 : Fin 2) * 128 + 128
    omega

/-- After region 0 its output array holds the layer of the arrays the region found. -/
theorem final0 (c : Dev nD) : (dat0 V c).arrAt 5 cfg0.N = layerOf V c :=
  (dat0 V c).arrAt_eq_of_cover 5 (layerOf V c) (fun t _ => flushed0 V c t) cover0

/-! ## Region 1: the second layer and the head -/

/-- The printed index maps of region 1, decided over the grid: the row-tiled windows sit at block row t, every other
    block index is 0. -/
theorem indexMaps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem points1 (t : Fin cfg1.N) : t.val < 20 := by
  have h : t.val < cfg1.N := t.isLt
  have e : cfg1.N = 20 := N_1
  omega

/-- The second layer of the arrays region 1 finds. -/
abbrev hiddenOf (c : Dev nD) : S100000x128.Idx → Elt Ideal .f32 :=
  layerRow (V c main_v31) (V c main_v50) (V c main_v6) (V c main_v7) (V c main_v10)

/-- What region 1 leaves in its output array: the head of the second layer. -/
abbrev headOf (c : Dev nD) : S100000x1.Idx → Elt Ideal .f32 :=
  headRow (hiddenOf V c) (V c main_v8) (V c main_v11)

/-- What point t of region 1 writes back is block t of the head of the whole arrays. -/
theorem flushed1 (c : Dev nD) (t : Fin cfg1.N) :
    (dat1 V c).flushed 7 t = ((cfg1.win 7).blk t).view.read (Elt Ideal) (headOf V c) := by
  show (cfg1.win 7).cut (grid1.coords t) ((dat1 V c).after 7 t) = _
  rw [after1_7]
  unfold out1_7
  rw [View.canon_unit_zero zeroOffsets]
  simp only [View.ld_unit_zero (S := S5000x128) zeroOffsets, View.ld_unit_zero (S := S128x128) zeroOffsets,
    View.ld_unit_zero (S := S1x128) zeroOffsets, View.ld_unit_zero (S := S128x1) zeroOffsets,
    View.ld_unit_zero (S := S1x1) zeroOffsets]
  rw [Cert.KernelIdeal.Body.headBlock]
  obtain ⟨e0, e1, e2, e3, e4, e5, e6, e7, e8, e9, e10, e11, e12, e13, e14, e15⟩ := indexMaps1 t
  have ht := points1 t
  funext y
  obtain ⟨p, z, rfl⟩ : ∃ (p : Fin 5000) (z : Fin 1), y = ix2 p z := ⟨y 0, y 1, eq_ix2 y⟩
  have hp := p.isLt
  have hz := z.isLt
  have hr : t.val * 5000 + p.val < 100000 := by omega
  show headRow (layerRow (iblk1 V c 0 t) (iblk1 V c 1 t) (iblk1 V c 2 t) (iblk1 V c 3 t) (iblk1 V c 4 t))
        (iblk1 V c 5 t) (iblk1 V c 6 t) (ix2 p z)
      = headOf V c (((cfg1.win 7).blk t).view.emb (ix2 p z))
  have hemb : ((cfg1.win 7).blk t).view.emb (ix2 p z) = ix2 (⟨t.val * 5000 + p.val, hr⟩ : Fin 100000) z := by
    funext a; apply Fin.ext
    match a with
    | ⟨0, _⟩ => show win1_7.index t (0 : Fin 2) * 5000 + 1 * p.val = t.val * 5000 + p.val; omega
    | ⟨1, _⟩ => show win1_7.index t (1 : Fin 2) * 1 + 1 * z.val = z.val; omega
  rw [hemb]
  have h2 : iblk1 V c 2 t = V c main_v6 := by
    funext w
    show V c main_v6 (((cfg1.win 2).blk t).view.emb w) = V c main_v6 w
    refine congrArg (V c main_v6) ?_
    funext a; apply Fin.ext
    match a with
    | ⟨0, _⟩ => show win1_2.index t (0 : Fin 2) * 128 + 1 * (w 0).val = (w 0).val; omega
    | ⟨1, _⟩ => show win1_2.index t (1 : Fin 2) * 128 + 1 * (w 1).val = (w 1).val; omega
  have h3 : iblk1 V c 3 t = V c main_v7 := by
    funext w
    show V c main_v7 (((cfg1.win 3).blk t).view.emb w) = V c main_v7 w
    refine congrArg (V c main_v7) ?_
    funext a; apply Fin.ext
    match a with
    | ⟨0, _⟩ => show win1_3.index t (0 : Fin 2) * 128 + 1 * (w 0).val = (w 0).val; omega
    | ⟨1, _⟩ => show win1_3.index t (1 : Fin 2) * 128 + 1 * (w 1).val = (w 1).val; omega
  have h4 : iblk1 V c 4 t = V c main_v10 := by
    funext w
    show V c main_v10 (((cfg1.win 4).blk t).view.emb w) = V c main_v10 w
    refine congrArg (V c main_v10) ?_
    funext a; apply Fin.ext
    match a with
    | ⟨0, _⟩ => show win1_4.index t (0 : Fin 2) * 1 + 1 * (w 0).val = (w 0).val; omega
    | ⟨1, _⟩ => show win1_4.index t (1 : Fin 2) * 128 + 1 * (w 1).val = (w 1).val; omega
  have h5 : iblk1 V c 5 t = V c main_v8 := by
    funext w
    show V c main_v8 (((cfg1.win 5).blk t).view.emb w) = V c main_v8 w
    refine congrArg (V c main_v8) ?_
    funext a; apply Fin.ext
    match a with
    | ⟨0, _⟩ => show win1_5.index t (0 : Fin 2) * 128 + 1 * (w 0).val = (w 0).val; omega
    | ⟨1, _⟩ => show win1_5.index t (1 : Fin 2) * 1 + 1 * (w 1).val = (w 1).val; omega
  have h6 : iblk1 V c 6 t = V c main_v11 := by
    funext w
    show V c main_v11 (((cfg1.win 6).blk t).view.emb w) = V c main_v11 w
    refine congrArg (V c main_v11) ?_
    funext a; apply Fin.ext
    match a with
    | ⟨0, _⟩ => show win1_6.index t (0 : Fin 2) * 1 + 1 * (w 0).val = (w 0).val; omega
    | ⟨1, _⟩ => show win1_6.index t (1 : Fin 2) * 1 + 1 * (w 1).val = (w 1).val; omega
  have hx : ∀ j : Fin 128, iblk1 V c 0 t (ix2 p j) = V c main_v31 (ix2 (⟨t.val * 5000 + p.val, hr⟩ : Fin 100000) j) := fun j => by
    show V c main_v31 (((cfg1.win 0).blk t).view.emb (ix2 p j)) = _
    refine congrArg (V c main_v31) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * j.val = j.val; omega
  have hm : ∀ j : Fin 128, iblk1 V c 1 t (ix2 p j) = V c main_v50 (ix2 (⟨t.val * 5000 + p.val, hr⟩ : Fin 100000) j) := fun j => by
    show V c main_v50 (((cfg1.win 1).blk t).view.emb (ix2 p j)) = _
    refine congrArg (V c main_v50) ?_
    funext a; apply Fin.ext
    match a with
    | ⟨0, _⟩ => show win1_1.index t (0 : Fin 2) * 5000 + 1 * p.val = t.val * 5000 + p.val; omega
    | ⟨1, _⟩ => show win1_1.index t (1 : Fin 2) * 128 + 1 * j.val = j.val; omega
  rw [h2, h3, h4, h5, h6]
  exact headRow_row (n := 100000) (n' := 5000) (k := 128) (c := 1) (hiddenOf V c)
    (layerRow (iblk1 V c 0 t) (iblk1 V c 1 t) (V c main_v6) (V c main_v7) (V c main_v10)) (V c main_v8) (V c main_v11)
    ⟨t.val * 5000 + p.val, hr⟩ p z
    (fun j => layerRow_row (n := 100000) (n' := 5000) (k := 128) (c := 128) (V c main_v31) (V c main_v50)
      (iblk1 V c 0 t) (iblk1 V c 1 t) (V c main_v6) (V c main_v7) (V c main_v10) ⟨t.val * 5000 + p.val, hr⟩ p j hx hm)

/-- An index of region 1's output array is in point t's block iff each coordinate is in the block's range. -/
theorem mem_block1 (t : Fin cfg1.N) (i : S100000x1.Idx) :
    i ∈ ((cfg1.win 7).blk t).view.set ↔ ∀ a : Fin 2, win1_7.index t a * S5000x1.size a ≤ (i a).val
      ∧ (i a).val < win1_7.index t a * S5000x1.size a + S5000x1.size a := by
  show i ∈ ((View.whole main_v51).slice (win1_7.rect t)).set ↔ _
  rw [View.set_slice_whole, Rect.mem_set_unit]
  exact Iff.rfl

/-- Every row of region 1's output lies in the block of the point that is the row number divided by 5000. -/
theorem cover1 (i : S100000x1.Idx) :
    ∃ t : Fin cfg1.N, (cfg1.win 7).flush t = true ∧ i ∈ ((cfg1.win 7).blk t).view.set := by
  have hi0 : (i 0).val < 100000 := (i 0).isLt
  have hi1 : (i 1).val < 1 := (i 1).isLt
  have hN : (i 0).val / 5000 < cfg1.N := by rw [show cfg1.N = 20 from N_1]; omega
  refine ⟨⟨(i 0).val / 5000, hN⟩, flush1_7 _, ?_⟩
  rw [mem_block1]
  obtain ⟨-, -, -, -, -, -, -, -, -, -, -, -, -, -, e14, e15⟩ := indexMaps1 ⟨(i 0).val / 5000, hN⟩
  intro a
  match a with
  | ⟨0, _⟩ =>
    show win1_7.index ⟨(i 0).val / 5000, hN⟩ (0 : Fin 2) * 5000 ≤ (i 0).val
      ∧ (i 0).val < win1_7.index ⟨(i 0).val / 5000, hN⟩ (0 : Fin 2) * 5000 + 5000
    rw [e14]
    show (i 0).val / 5000 * 5000 ≤ (i 0).val ∧ (i 0).val < (i 0).val / 5000 * 5000 + 5000
    omega
  | ⟨1, _⟩ =>
    show win1_7.index ⟨(i 0).val / 5000, hN⟩ (1 : Fin 2) * 1 ≤ (i 1).val
      ∧ (i 1).val < win1_7.index ⟨(i 0).val / 5000, hN⟩ (1 : Fin 2) * 1 + 1
    omega

/-- After region 1 its output array holds the head of the second layer of the arrays the region found. -/
theorem final1 (c : Dev nD) : (dat1 V c).arrAt 7 cfg1.N = headOf V c :=
  (dat1 V c).arrAt_eq_of_cover 7 (headOf V c) (fun t _ => flushed1 V c t) cover1

end Cert.KernelIdeal.Blocks

end
-- ==== Proof.KernelFold.lean ====
/-
  The kernel program's result as a function of its arguments.

  The contents of the buffers at the five segment boundaries are a fold from the launch memory.  Reading it backwards
  from the result: the result is the reshape to [100000] of the second pallas_call's output; that output is the head of
  the second layer of the arrays the call finds; those are the first pallas_call's output h1, the neighbour mean of h1,
  the transposed weights and the biases reshaped to rows, all computed by host operations from the arguments and h1;
  and h1 is the first layer of x, the neighbour mean of x, the transposed weights and the bias row.

  The neighbour mean of node features is: gather the rows at the source indices (negative ones wrapped by 100000),
  scatter-add them to the destination rows of a zero array, and divide each row by max (number of arriving edges) 1,
  the count scattered into a flat array and then broadcast along the row.
-/
import proofs.«118519_j34136400069037_1_alg».proof.Proof.GenP.KernelIdeal.Frame
import proofs.«118519_j34136400069037_1_alg».proof.Proof.KernelBlocks
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.GenP Cert.Sage

/-! ## The host functions -/

/-- The source words of the edges, as a vector. -/
def srcRow (ei : IVec S2x1600000 32) : IVec S1600000 32 :=
  shapeCast S1600000 (extractStridedSlice S1x1600000 ![0, 0] ei slices_S2x1600000_S1x1600000_0_0) shapeCasts_S1x1600000_S1600000

/-- The destination words of the edges, as a vector. -/
def dstRow (ei : IVec S2x1600000 32) : IVec S1600000 32 :=
  shapeCast S1600000 (extractStridedSlice S1x1600000 ![1, 0] ei slices_S2x1600000_S1x1600000_1_0) shapeCasts_S1x1600000_S1600000

/-- The source words with the negative ones wrapped by the number of nodes. -/
def srcWrapped (ei : IVec S2x1600000 32) : IVec S1600000 32 :=
  select (cmpi .slt (srcRow ei) (broadcastInDim S1600000 ![] bcast_S_S1600000 (constantI S_ 32 0#32)))
    (addi (srcRow ei) (broadcastInDim S1600000 ![] bcast_S_S1600000 (constantI S_ 32 100000#32))) (srcRow ei)

/-- A vector of index words as a column of one-word index vectors. -/
def column (v : IVec S1600000 32) : IVec S1600000x1 32 := broadcastInDim S1600000x1 ![0] bcast_S1600000_S1600000x1_0 v

/-- The rows gathered at the sources and scatter-added at the destinations into a zero array. -/
def aggregate (feat : FVec Ideal S100000x128 .f32) (ei : IVec S2x1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (column (dstRow ei))
    (Host.gather gather_S100000x128_S1600000x1_S1600000x128_1_0_n_n_0_1_1128 feat (column (srcWrapped ei)))

/-- max (number of edges arriving at each node) 1, scattered into a flat array. -/
def countFlat (ei : IVec S2x1600000 32) : FVec Ideal S100000 .f32 :=
  maximumf
    (Host.scatterAdd (F := Ideal) scatter_S100000_S1600000x1_S1600000_n_0_0_1
      (broadcastInDim S100000 ![] bcast_S_S100000 (constant (F := Ideal) S_ .f32 0x00000000#32))
      (column (dstRow ei))
      (broadcastInDim S1600000 ![] bcast_S_S1600000 (constant (F := Ideal) S_ .f32 0x3F800000#32)))
    (broadcastInDim S100000 ![] bcast_S_S100000 (constant (F := Ideal) S_ .f32 0x3F800000#32))

/-- The neighbour mean: the aggregate divided, row by row, by the floored count. -/
def meanOf (feat : FVec Ideal S100000x128 .f32) (ei : IVec S2x1600000 32) : FVec Ideal S100000x128 .f32 :=
  Host.divf (F := Ideal) (aggregate feat ei)
    (broadcastInDim S100000x128 ![0, 1] bcast_S100000x1_S100000x128_0_1
      (broadcastInDim S100000x1 ![0] bcast_S100000_S100000x1_0 (countFlat ei)))

/-- The first layer's output from the arguments. -/
def hidden1 (a0 : FVec Ideal S100000x128 .f32) (a1 : IVec S2x1600000 32) (a2 : FVec Ideal S128x128 .f32)
    (a3 : FVec Ideal S128 .f32) (a4 : FVec Ideal S128x128 .f32) : FVec Ideal S100000x128 .f32 :=
  layerRow a0 (meanOf a0 a1) (transpose S128x128 [1, 0] a2 transposes_S128x128_S128x128_1_0) (transpose S128x128 [1, 0] a4 transposes_S128x128_S128x128_1_0) (shapeCast S1x128 a3 shapeCasts_S128_S1x128)

/-- The kernel program's result from its ten arguments. -/
def kernelOut (a0 : FVec Ideal S100000x128 .f32) (a1 : IVec S2x1600000 32) (a2 : FVec Ideal S128x128 .f32)
    (a3 : FVec Ideal S128 .f32) (a4 a5 : FVec Ideal S128x128 .f32) (a6 : FVec Ideal S128 .f32)
    (a7 : FVec Ideal S128x128 .f32) (a8 : FVec Ideal S1x128 .f32) (a9 : FVec Ideal S1 .f32) : FVec Ideal S100000 .f32 :=
  shapeCast S100000
    (headRow
      (layerRow (hidden1 a0 a1 a2 a3 a4) (meanOf (hidden1 a0 a1 a2 a3 a4) a1) (transpose S128x128 [1, 0] a5 transposes_S128x128_S128x128_1_0) (transpose S128x128 [1, 0] a7 transposes_S128x128_S128x128_1_0)
        (shapeCast S1x128 a6 shapeCasts_S128_S1x128))
      (transpose S128x1 [1, 0] a8 transposes_S1x128_S128x1_1_0) (shapeCast S1x1 a9 shapeCasts_S1_S1x1))
    shapeCasts_S100000x1_S100000

variable (m : (ℓ : Loc nD τ sig) → Buf (Elt Ideal) ℓ) (ρ : Dev nD → PrngReg) (c : Dev nD)

/-! ## Region 0's entry contents, from the launch memory -/

theorem entry0_x : W1 m ρ c (Proc.devRef .tc main_arg0)
    = (m ((c.tc : Thread nD τ).loc main_arg0)) := by
  show StableHlo.after hostOps0 (W0 m ρ c) (Proc.devRef .tc main_arg0) = _
  dsimp only [hostOps0]
  after_results_simp

theorem entry0_src : W1 m ρ c (Proc.devRef .tc main_v1)
    = srcRow (m ((c.tc : Thread nD τ).loc main_arg1)) := by
  show StableHlo.after hostOps0 (W0 m ρ c) (Proc.devRef .tc main_v1) = _
  dsimp only [hostOps0]
  after_results_simp
  rfl

theorem entry0_dst : W1 m ρ c (Proc.devRef .tc main_v3)
    = dstRow (m ((c.tc : Thread nD τ).loc main_arg1)) := by
  show StableHlo.after hostOps0 (W0 m ρ c) (Proc.devRef .tc main_v3) = _
  dsimp only [hostOps0]
  after_results_simp
  rfl

theorem entry0_mean : W1 m ρ c (Proc.devRef .tc main_v30)
    = meanOf (m ((c.tc : Thread nD τ).loc main_arg0)) (m ((c.tc : Thread nD τ).loc main_arg1)) := by
  show StableHlo.after hostOps0 (W0 m ρ c) (Proc.devRef .tc main_v30) = _
  dsimp only [hostOps0]
  after_results_simp
  rfl

theorem entry0_wl : W1 m ρ c (Proc.devRef .tc main_v4)
    = (transpose S128x128 [1, 0] (m ((c.tc : Thread nD τ).loc main_arg2)) transposes_S128x128_S128x128_1_0) := by
  show StableHlo.after hostOps0 (W0 m ρ c) (Proc.devRef .tc main_v4) = _
  dsimp only [hostOps0]
  after_results_simp

theorem entry0_wr : W1 m ρ c (Proc.devRef .tc main_v5)
    = (transpose S128x128 [1, 0] (m ((c.tc : Thread nD τ).loc main_arg4)) transposes_S128x128_S128x128_1_0) := by
  show StableHlo.after hostOps0 (W0 m ρ c) (Proc.devRef .tc main_v5) = _
  dsimp only [hostOps0]
  after_results_simp

theorem entry0_b : W1 m ρ c (Proc.devRef .tc main_v9)
    = shapeCast S1x128 (m ((c.tc : Thread nD τ).loc main_arg3)) shapeCasts_S128_S1x128 := by
  show StableHlo.after hostOps0 (W0 m ρ c) (Proc.devRef .tc main_v9) = _
  dsimp only [hostOps0]
  after_results_simp
  rfl

theorem entry0_wl2 : W1 m ρ c (Proc.devRef .tc main_v6)
    = (transpose S128x128 [1, 0] (m ((c.tc : Thread nD τ).loc main_arg5)) transposes_S128x128_S128x128_1_0) := by
  show StableHlo.after hostOps0 (W0 m ρ c) (Proc.devRef .tc main_v6) = _
  dsimp only [hostOps0]
  after_results_simp

theorem entry0_wr2 : W1 m ρ c (Proc.devRef .tc main_v7)
    = (transpose S128x128 [1, 0] (m ((c.tc : Thread nD τ).loc main_arg7)) transposes_S128x128_S128x128_1_0) := by
  show StableHlo.after hostOps0 (W0 m ρ c) (Proc.devRef .tc main_v7) = _
  dsimp only [hostOps0]
  after_results_simp

theorem entry0_b2 : W1 m ρ c (Proc.devRef .tc main_v10)
    = shapeCast S1x128 (m ((c.tc : Thread nD τ).loc main_arg6)) shapeCasts_S128_S1x128 := by
  show StableHlo.after hostOps0 (W0 m ρ c) (Proc.devRef .tc main_v10) = _
  dsimp only [hostOps0]
  after_results_simp
  rfl

theorem entry0_wo : W1 m ρ c (Proc.devRef .tc main_v8)
    = transpose S128x1 [1, 0] (m ((c.tc : Thread nD τ).loc main_arg8)) transposes_S1x128_S128x1_1_0 := by
  show StableHlo.after hostOps0 (W0 m ρ c) (Proc.devRef .tc main_v8) = _
  dsimp only [hostOps0]
  after_results_simp

theorem entry0_bo : W1 m ρ c (Proc.devRef .tc main_v11)
    = shapeCast S1x1 (m ((c.tc : Thread nD τ).loc main_arg9)) shapeCasts_S1_S1x1 := by
  show StableHlo.after hostOps0 (W0 m ρ c) (Proc.devRef .tc main_v11) = _
  dsimp only [hostOps0]
  after_results_simp
  rfl

/-! ## Region 0's exit contents -/

/-- The first pallas_call leaves the first layer of the arguments in its output. -/
theorem exit0_h1 : W2 m ρ c (Proc.devRef .tc main_v31)
    = hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W2_arr m ρ c 5).trans ?_
  rw [Cert.KernelIdeal.Blocks.final0 (V1 m ρ) c]
  show layerRow (W1 m ρ c (Proc.devRef .tc main_arg0)) (W1 m ρ c (Proc.devRef .tc main_v30))
      (W1 m ρ c (Proc.devRef .tc main_v4)) (W1 m ρ c (Proc.devRef .tc main_v5)) (W1 m ρ c (Proc.devRef .tc main_v9)) = _
  rw [entry0_x, entry0_mean, entry0_wl, entry0_wr, entry0_b]
  rfl

theorem exit0_src : W2 m ρ c (Proc.devRef .tc main_v1) = srcRow (m ((c.tc : Thread nD τ).loc main_arg1)) :=
  (W2_of_ne m ρ c main_v1 (by decide)).trans (entry0_src m ρ c)
theorem exit0_dst : W2 m ρ c (Proc.devRef .tc main_v3) = dstRow (m ((c.tc : Thread nD τ).loc main_arg1)) :=
  (W2_of_ne m ρ c main_v3 (by decide)).trans (entry0_dst m ρ c)
theorem exit0_wl2 : W2 m ρ c (Proc.devRef .tc main_v6) = (transpose S128x128 [1, 0] (m ((c.tc : Thread nD τ).loc main_arg5)) transposes_S128x128_S128x128_1_0) :=
  (W2_of_ne m ρ c main_v6 (by decide)).trans (entry0_wl2 m ρ c)
theorem exit0_wr2 : W2 m ρ c (Proc.devRef .tc main_v7) = (transpose S128x128 [1, 0] (m ((c.tc : Thread nD τ).loc main_arg7)) transposes_S128x128_S128x128_1_0) :=
  (W2_of_ne m ρ c main_v7 (by decide)).trans (entry0_wr2 m ρ c)
theorem exit0_b2 : W2 m ρ c (Proc.devRef .tc main_v10) = shapeCast S1x128 (m ((c.tc : Thread nD τ).loc main_arg6)) shapeCasts_S128_S1x128 :=
  (W2_of_ne m ρ c main_v10 (by decide)).trans (entry0_b2 m ρ c)
theorem exit0_wo : W2 m ρ c (Proc.devRef .tc main_v8) = transpose S128x1 [1, 0] (m ((c.tc : Thread nD τ).loc main_arg8)) transposes_S1x128_S128x1_1_0 :=
  (W2_of_ne m ρ c main_v8 (by decide)).trans (entry0_wo m ρ c)
theorem exit0_bo : W2 m ρ c (Proc.devRef .tc main_v11) = shapeCast S1x1 (m ((c.tc : Thread nD τ).loc main_arg9)) shapeCasts_S1_S1x1 :=
  (W2_of_ne m ρ c main_v11 (by decide)).trans (entry0_bo m ρ c)

/-! ## Region 1's entry contents -/

theorem entry1_h1 : W3 m ρ c (Proc.devRef .tc main_v31)
    = W2 m ρ c (Proc.devRef .tc main_v31) := by
  show StableHlo.after hostOps1 (W2 m ρ c) (Proc.devRef .tc main_v31) = _
  dsimp only [hostOps1]
  after_results_simp

theorem entry1_mean : W3 m ρ c (Proc.devRef .tc main_v50)
    = meanOf (W2 m ρ c (Proc.devRef .tc main_v31)) (m ((c.tc : Thread nD τ).loc main_arg1)) := by
  show StableHlo.after hostOps1 (W2 m ρ c) (Proc.devRef .tc main_v50) = _
  dsimp only [hostOps1]
  after_results_simp
  rw [exit0_src, exit0_dst]
  rfl

theorem entry1_wl : W3 m ρ c (Proc.devRef .tc main_v6)
    = W2 m ρ c (Proc.devRef .tc main_v6) := by
  show StableHlo.after hostOps1 (W2 m ρ c) (Proc.devRef .tc main_v6) = _
  dsimp only [hostOps1]
  after_results_simp

theorem entry1_wr : W3 m ρ c (Proc.devRef .tc main_v7)
    = W2 m ρ c (Proc.devRef .tc main_v7) := by
  show StableHlo.after hostOps1 (W2 m ρ c) (Proc.devRef .tc main_v7) = _
  dsimp only [hostOps1]
  after_results_simp

theorem entry1_b : W3 m ρ c (Proc.devRef .tc main_v10)
    = W2 m ρ c (Proc.devRef .tc main_v10) := by
  show StableHlo.after hostOps1 (W2 m ρ c) (Proc.devRef .tc main_v10) = _
  dsimp only [hostOps1]
  after_results_simp

theorem entry1_wo : W3 m ρ c (Proc.devRef .tc main_v8)
    = W2 m ρ c (Proc.devRef .tc main_v8) := by
  show StableHlo.after hostOps1 (W2 m ρ c) (Proc.devRef .tc main_v8) = _
  dsimp only [hostOps1]
  after_results_simp

theorem entry1_bo : W3 m ρ c (Proc.devRef .tc main_v11)
    = W2 m ρ c (Proc.devRef .tc main_v11) := by
  show StableHlo.after hostOps1 (W2 m ρ c) (Proc.devRef .tc main_v11) = _
  dsimp only [hostOps1]
  after_results_simp

/-! ## Region 1's exit contents, and the result -/

/-- The second pallas_call leaves the head of the second layer in its output. -/
theorem exit1_out : W4 m ρ c (Proc.devRef .tc main_v51)
    = headRow
        (layerRow (hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
          (meanOf (hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)))
          (transpose S128x128 [1, 0] (m ((c.tc : Thread nD τ).loc main_arg5)) transposes_S128x128_S128x128_1_0) (transpose S128x128 [1, 0] (m ((c.tc : Thread nD τ).loc main_arg7)) transposes_S128x128_S128x128_1_0) (shapeCast S1x128 (m ((c.tc : Thread nD τ).loc main_arg6)) shapeCasts_S128_S1x128))
        (transpose S128x1 [1, 0] (m ((c.tc : Thread nD τ).loc main_arg8)) transposes_S1x128_S128x1_1_0) (shapeCast S1x1 (m ((c.tc : Thread nD τ).loc main_arg9)) shapeCasts_S1_S1x1) := by
  refine (W4_arr m ρ c 7).trans ?_
  rw [Cert.KernelIdeal.Blocks.final1 (V3 m ρ) c]
  show headRow
      (layerRow (W3 m ρ c (Proc.devRef .tc main_v31)) (W3 m ρ c (Proc.devRef .tc main_v50))
        (W3 m ρ c (Proc.devRef .tc main_v6)) (W3 m ρ c (Proc.devRef .tc main_v7)) (W3 m ρ c (Proc.devRef .tc main_v10)))
      (W3 m ρ c (Proc.devRef .tc main_v8)) (W3 m ρ c (Proc.devRef .tc main_v11)) = _
  rw [entry1_h1, entry1_mean, entry1_wl, entry1_wr, entry1_b, entry1_wo, entry1_bo,
    exit0_h1, exit0_wl2, exit0_wr2, exit0_b2, exit0_wo, exit0_bo]

/-- The result buffer ends at the kernel program's function of the arguments. -/
theorem result_eq : W5 m ρ c (Proc.devRef .tc main_v52)
    = kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show StableHlo.after hostOps2 (W4 m ρ c) (Proc.devRef .tc main_v52) = _
  dsimp only [hostOps2]
  after_results_simp
  rw [exit1_out]
  rfl

end Cert.KernelIdeal.Fold

end
-- ==== Proof.RefValue.lean ====
/-
  The reference program's result as a function of its arguments, in the spec's words.

  The generated run ends with the result at one composed term of the arguments.  Folded into named pieces it is: the
  reshape to [100000] of h2 · woᵀ + bo, where h2 is the layer of h1 and h1 the layer of x, a layer being
  max ((x · wlᵀ + mean · wrᵀ) + b) 0 with the bias broadcast in two steps, and mean the neighbour mean: gather at the
  sources (negative ones wrapped), scatter-add at the destinations into zeros, divide by the floored count, which the
  reference scatters directly as a column.
-/
import proofs.«118519_j34136400069037_1_alg».proof.Proof.Gen.ReferenceIdeal.Run
import proofs.«118519_j34136400069037_1_alg».proof.Proof.LibSageLayers

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Value Cert.Sage Cert.Layers

/-! ## The host functions -/

/-- The source words of the edges, as a vector. -/
def srcRow (ei : IVec S2x1600000 32) : IVec S1600000 32 :=
  shapeCast S1600000 (extractStridedSlice S1x1600000 ![0, 0] ei slices_S2x1600000_S1x1600000_0_0) shapeCasts_S1x1600000_S1600000

/-- The destination words of the edges, as a vector. -/
def dstRow (ei : IVec S2x1600000 32) : IVec S1600000 32 :=
  shapeCast S1600000 (extractStridedSlice S1x1600000 ![1, 0] ei slices_S2x1600000_S1x1600000_1_0) shapeCasts_S1x1600000_S1600000

/-- The source words with the negative ones wrapped by the number of nodes. -/
def srcWrapped (ei : IVec S2x1600000 32) : IVec S1600000 32 :=
  select (cmpi .slt (srcRow ei) (broadcastInDim S1600000 ![] bcast_S_S1600000 (constantI S_ 32 0#32)))
    (addi (srcRow ei) (broadcastInDim S1600000 ![] bcast_S_S1600000 (constantI S_ 32 100000#32))) (srcRow ei)

/-- A vector of index words as a column of one-word index vectors. -/
def column (v : IVec S1600000 32) : IVec S1600000x1 32 := broadcastInDim S1600000x1 ![0] bcast_S1600000_S1600000x1_0 v

/-- The rows gathered at the sources and scatter-added at the destinations into a zero array. -/
def aggregate (feat : FVec Ideal S100000x128 .f32) (ei : IVec S2x1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (column (dstRow ei))
    (Host.gather gather_S100000x128_S1600000x1_S1600000x128_1_0_n_n_0_1_1128 feat (column (srcWrapped ei)))

/-- max (number of edges arriving at each node) 1, scattered as a column. -/
def countCol (ei : IVec S2x1600000 32) : FVec Ideal S100000x1 .f32 :=
  maximumf
    (Host.scatterAdd (F := Ideal) scatter_S100000x1_S1600000x1_S1600000x1_1_0_0_1
      (broadcastInDim S100000x1 ![] bcast_S_S100000x1 (constant (F := Ideal) S_ .f32 0x00000000#32))
      (column (dstRow ei))
      (broadcastInDim S1600000x1 ![] bcast_S_S1600000x1 (constant (F := Ideal) S_ .f32 0x3F800000#32)))
    (broadcastInDim S100000x1 ![] bcast_S_S100000x1 (constant (F := Ideal) S_ .f32 0x3F800000#32))

/-- The neighbour mean: the aggregate divided, row by row, by the floored count. -/
def meanOf (feat : FVec Ideal S100000x128 .f32) (ei : IVec S2x1600000 32) : FVec Ideal S100000x128 .f32 :=
  Host.divf (F := Ideal) (aggregate feat ei)
    (broadcastInDim S100000x128 ![0, 1] bcast_S100000x1_S100000x128_0_1 (countCol ei))

/-- A layer as the host spells it. -/
def hostLayer (x mean : FVec Ideal S100000x128 .f32) (w1 w2 : FVec Ideal S128x128 .f32) (b : FVec Ideal S128 .f32) :
    FVec Ideal S100000x128 .f32 :=
  maximumf
    (addf
      (addf
        (Host.dotGeneral (F := Ideal) dot_S100000x128_S128x128_S100000x128_1_0_0_1_n_n none x
          (transpose S128x128 [1, 0] w1 transposes_S128x128_S128x128_1_0))
        (Host.dotGeneral (F := Ideal) dot_S100000x128_S128x128_S100000x128_1_0_0_1_n_n none mean
          (transpose S128x128 [1, 0] w2 transposes_S128x128_S128x128_1_0)))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- The reference's result from its ten arguments. -/
def refOut (a0 : FVec Ideal S100000x128 .f32) (a1 : IVec S2x1600000 32) (a2 : FVec Ideal S128x128 .f32)
    (a3 : FVec Ideal S128 .f32) (a4 a5 : FVec Ideal S128x128 .f32) (a6 : FVec Ideal S128 .f32)
    (a7 : FVec Ideal S128x128 .f32) (a8 : FVec Ideal S1x128 .f32) (a9 : FVec Ideal S1 .f32) : FVec Ideal S100000 .f32 :=
  shapeCast S100000
    (addf
      (Host.dotGeneral (F := Ideal) dot_S100000x128_S128x1_S100000x1_1_0_0_1_n_n none
        (hostLayer (hostLayer a0 (meanOf a0 a1) a2 a4 a3) (meanOf (hostLayer a0 (meanOf a0 a1) a2 a4 a3) a1) a5 a7 a6)
        (transpose S128x1 [1, 0] a8 transposes_S1x128_S128x1_1_0))
      (broadcastInDim S100000x1 ![0, 1] bcast_S1x1_S100000x1_0_1 (broadcastInDim S1x1 ![1] bcast_S1_S1x1_1 a9)))
    shapeCasts_S100000x1_S100000

variable (m : (ℓ : Loc nD τ sig) → Buf (Elt Ideal) ℓ) (c : Dev nD)

/-- The generated run's result term is that function of the argument arrays. -/
theorem res_eq : res_main_v63 (F := Ideal) m c
    = refOut (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9)) := by
  unfold res_main_v63
  rfl

/-! ## In the spec's words -/

theorem dotSquare_eq : dot_S100000x128_S128x128_S100000x128_1_0_0_1_n_n
    = ⟨[1], [0], [0], [1], [], [], Facts₀.dot_S100000x128_S128x128_S100000x128_1_0_0_1_n_n_wf⟩ := rfl

theorem dotColumn_eq : dot_S100000x128_S128x1_S100000x1_1_0_0_1_n_n
    = ⟨[1], [0], [0], [1], [], [], Facts₀.dot_S100000x128_S128x1_S100000x1_1_0_0_1_n_n_wf⟩ := rfl

/-- The host's layer is the spec's layer of the transposed weights. -/
theorem hostLayer_eq (x mean : FVec Ideal S100000x128 .f32) (w1 w2 : FVec Ideal S128x128 .f32) (b : FVec Ideal S128 .f32) :
    hostLayer x mean w1 w2 b
      = layer x mean (transpose S128x128 [1, 0] w1 transposes_S128x128_S128x128_1_0)
          (transpose S128x128 [1, 0] w2 transposes_S128x128_S128x128_1_0) b := by
  unfold hostLayer layer
  rw [hostDot_eq_mm _ Facts₀.dot_S100000x128_S128x128_S100000x128_1_0_0_1_n_n_wf dotSquare_eq,
    hostDot_eq_mm _ Facts₀.dot_S100000x128_S128x128_S100000x128_1_0_0_1_n_n_wf dotSquare_eq]
  exact hostBiasRelu_eq bcast_S128_S1x128_1 bcast_S1x128_S100000x128_0_1 bcast_S_S100000x128 _ b

/-- The reference's result in the spec's words. -/
theorem refOut_eq (a0 : FVec Ideal S100000x128 .f32) (a1 : IVec S2x1600000 32) (a2 : FVec Ideal S128x128 .f32)
    (a3 : FVec Ideal S128 .f32) (a4 a5 : FVec Ideal S128x128 .f32) (a6 : FVec Ideal S128 .f32)
    (a7 : FVec Ideal S128x128 .f32) (a8 : FVec Ideal S1x128 .f32) (a9 : FVec Ideal S1 .f32) :
    refOut a0 a1 a2 a3 a4 a5 a6 a7 a8 a9
      = shapeCast S100000
          (head
            (layer
              (layer a0 (meanOf a0 a1) (transpose S128x128 [1, 0] a2 transposes_S128x128_S128x128_1_0)
                (transpose S128x128 [1, 0] a4 transposes_S128x128_S128x128_1_0) a3)
              (meanOf
                (layer a0 (meanOf a0 a1) (transpose S128x128 [1, 0] a2 transposes_S128x128_S128x128_1_0)
                  (transpose S128x128 [1, 0] a4 transposes_S128x128_S128x128_1_0) a3) a1)
              (transpose S128x128 [1, 0] a5 transposes_S128x128_S128x128_1_0)
              (transpose S128x128 [1, 0] a7 transposes_S128x128_S128x128_1_0) a6)
            (transpose S128x1 [1, 0] a8 transposes_S1x128_S128x1_1_0) a9)
          shapeCasts_S100000x1_S100000 := by
  unfold refOut head
  rw [hostLayer_eq, hostLayer_eq,
    hostDot_eq_mm _ Facts₀.dot_S100000x128_S128x1_S100000x1_1_0_0_1_n_n_wf dotColumn_eq,
    hostAddBias_eq bcast_S1_S1x1_1 bcast_S1x1_S100000x1_0_1]

end Cert.ReferenceIdeal.RefValue

end
-- ==== Proof.Bridge.lean ====
/-
  The two programs compute one function.

  Both results are the reshape of head (layer (layer x (mean x) …) (mean …) …): the kernel program's with each bias a
  reshaped row, which acts as the bias vector does; the reference's with each bias broadcast in two steps.  The
  neighbour means agree because the aggregates are the same scatter-add of the same gathered rows, and the divisors
  agree entry by entry: the count scattered flat and then made a column is the count scattered as a column.
-/
import proofs.«118519_j34136400069037_1_alg».proof.Proof.KernelFold
import proofs.«118519_j34136400069037_1_alg».proof.Proof.RefValue

set_option maxRecDepth 16384

noncomputable section

namespace Cert.Bridge

open Idealize.ShloMosaic Cert.Sage

/-- The floored neighbour count made a column (kernel program) is the one scattered as a column (reference). -/
theorem count_eq (ei : IVec ⟨2, ![2, 1600000]⟩ 32) :
    broadcastInDim Cert.KernelIdeal.S100000x1 ![0] Cert.KernelIdeal.Facts₀.bcast_S100000_S100000x1_0
        (Cert.KernelIdeal.Fold.countFlat ei)
      = Cert.ReferenceIdeal.RefValue.countCol ei := by
  unfold Cert.KernelIdeal.Fold.countFlat Cert.ReferenceIdeal.RefValue.countCol
  exact countColumn_eq (N := 100000) (E := 1600000) (w := 32) _ _
    (Cert.KernelIdeal.Fold.column (Cert.KernelIdeal.Fold.dstRow ei)) ![0] rfl _ _ _ _ _

/-- The neighbour means of the two programs agree. -/
theorem mean_eq (feat : FVec Ideal ⟨2, ![100000, 128]⟩ .f32) (ei : IVec ⟨2, ![2, 1600000]⟩ 32) :
    Cert.KernelIdeal.Fold.meanOf feat ei = Cert.ReferenceIdeal.RefValue.meanOf feat ei := by
  unfold Cert.KernelIdeal.Fold.meanOf Cert.ReferenceIdeal.RefValue.meanOf
  rw [count_eq]
  rfl

/-- The two programs' results are one function of the ten arguments. -/
theorem out_eq (a0 : FVec Ideal ⟨2, ![100000, 128]⟩ .f32) (a1 : IVec ⟨2, ![2, 1600000]⟩ 32)
    (a2 : FVec Ideal ⟨2, ![128, 128]⟩ .f32) (a3 : FVec Ideal ⟨1, ![128]⟩ .f32) (a4 a5 : FVec Ideal ⟨2, ![128, 128]⟩ .f32)
    (a6 : FVec Ideal ⟨1, ![128]⟩ .f32) (a7 : FVec Ideal ⟨2, ![128, 128]⟩ .f32) (a8 : FVec Ideal ⟨2, ![1, 128]⟩ .f32)
    (a9 : FVec Ideal ⟨1, ![1]⟩ .f32) :
    Cert.KernelIdeal.Fold.kernelOut a0 a1 a2 a3 a4 a5 a6 a7 a8 a9
      = Cert.ReferenceIdeal.RefValue.refOut a0 a1 a2 a3 a4 a5 a6 a7 a8 a9 := by
  rw [Cert.ReferenceIdeal.RefValue.refOut_eq]
  unfold Cert.KernelIdeal.Fold.kernelOut Cert.KernelIdeal.Fold.hidden1
  rw [layerRow_cast, layerRow_cast, headRow_cast]
  simp only [mean_eq]

end Cert.Bridge

end
-- ==== Proof.lean ====
/-
  Two layers of mean-aggregated neighbour features with a linear head, tiled over the nodes, against the plain
  reference, over the extended reals.

  Both programs compute, for node features x, edges (src, dst) and weights,
      h1  = max ((x · Wl1ᵀ + mean(x) · Wr1ᵀ) + bl1) 0,
      h2  = max ((h1 · Wl2ᵀ + mean(h1) · Wr2ᵀ) + bl2) 0,
      out = h2 · Woᵀ + bo,
  where mean(f) gathers the rows of f at the source indices (negative ones wrapped by the number of nodes), adds them
  up at the destination rows, and divides each row by max (number of arriving edges) 1.  Over the extended reals a
  change of float format is the identity and a matrix product into a zero accumulator is the plain sum, so nothing in
  the kernels' bf16 products differs from the reference's.  The differences are of arrangement only:
    * the dense part runs in two pallas_calls over twenty blocks of 5000 rows; a row of a layer depends on its inputs
      through that row alone (LibRowLocal), so the blocks written back are the blocks of one whole-array function
      (KernelBlocks);
    * the kernels take each bias as a reshaped one-row matrix, the reference broadcasts the vector in two steps
      (LibSageLayers);
    * the edge count is scattered into a flat array and then made a column, against a column scattered directly; an
      edge whose destination is out of range is dropped by both, and the two columns agree entry by entry (LibSageLayers).
  No law that fails at the infinities is used, so the precondition is never opened.

  The kernel program's run is the generated frame's run read at the result buffer as well (KernelRun), its result
  walked back through the segments to the arguments (KernelFold); the reference's run is generated, its term folded
  into the same words (RefValue); Bridge joins the two.  No operation was rewritten in idealizing the kernel: the
  idealized kernel is the kernel's own text read over the extended reals, and that conjunct is trivial.
-/
import proofs.«118519_j34136400069037_1_alg».proof.Defs
import proofs.«118519_j34136400069037_1_alg».proof.Proof.Gen.Kernel
import proofs.«118519_j34136400069037_1_alg».proof.Proof.GenP.Kernel.Frame
import proofs.«118519_j34136400069037_1_alg».proof.Proof.Gen.KernelIdeal
import proofs.«118519_j34136400069037_1_alg».proof.Proof.GenP.KernelIdeal.Frame
import proofs.«118519_j34136400069037_1_alg».proof.Proof.Gen.ReferenceIdeal
import proofs.«118519_j34136400069037_1_alg».proof.Proof.Gen.ReferenceIdeal.Run
import proofs.«118519_j34136400069037_1_alg».proof.Proof.Gen.Pre_finite_inputs
import proofs.«118519_j34136400069037_1_alg».proof.Proof.KernelRun
import proofs.«118519_j34136400069037_1_alg».proof.Proof.KernelFold
import proofs.«118519_j34136400069037_1_alg».proof.Proof.RefValue
import proofs.«118519_j34136400069037_1_alg».proof.Proof.Bridge
import Idealize.ShloMosaic.Adequacy
import Idealize.ShloMosaic.Init

noncomputable section

namespace Cert.Proof

open Idealize.ShloMosaic Idealize.ShloMosaic.TcCoe Idealize.SL.Sem

/-- The kernel program terminates without a fault and leaves its arguments unchanged. -/
theorem frame_kernel : Cert.frame_Kernel := fun m ρ _ => Cert.Kernel.GenP.frame m ρ

/-- So does its idealization. -/
theorem frame_ideal : Cert.frame_KernelIdeal := fun m ρ _ => Cert.KernelIdeal.GenP.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the same result: the kernel program's
    function of the arguments, which is the reference's. -/
theorem algebraic : Cert.algebraic_KernelIdeal_ReferenceIdeal := by
  intro m ρ m' ρ' _ hagree
  refine ⟨fun c => Cert.KernelIdeal.Fold.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Fold.result_eq m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.RefValue.res_eq, h0, h1, h2, h3, h4, h5, h6, h7, h8, h9]
    exact (Cert.Bridge.out_eq _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
